-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128 : Shape := ⟨2, ![1, 128]⟩
abbrev S4000x128 : Shape := ⟨2, ![4000, 128]⟩
abbrev S4000x1 : Shape := ⟨2, ![4000, 1]⟩
abbrev S4000 : Shape := ⟨1, ![4000]⟩
abbrev S1600000x128 : Shape := ⟨2, ![1600000, 128]⟩

abbrev nBuf : Space → Nat
  | .hbm => 46
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S100000x128, .bf16⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .bf16⟩
  | .hbm, ⟨40, _⟩ => ⟨S1600000x128, .f32⟩
  | .hbm, ⟨41, _⟩ => ⟨S_, .f32⟩
  | .hbm, ⟨42, _⟩ => ⟨S100000x128, .f32⟩
  | .hbm, ⟨43, _⟩ => ⟨S1600000x1, .i32⟩
  | .hbm, ⟨44, _⟩ => ⟨S100000x128, .f32⟩
  | .hbm, ⟨45, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S1x128, .f32⟩
  | .local _ .vmem, ⟨5, _⟩ => ⟨S1x128, .f32⟩
  | .local _ .vmem, ⟨6, _⟩ => ⟨S128x128, .f32⟩
  | .local _ .vmem, ⟨7, _⟩ => ⟨S4000x128, .bf16⟩
  | .local _ .vmem, ⟨8, _⟩ => ⟨S4000x128, .bf16⟩
  | .local _ .vmem, ⟨9, _⟩ => ⟨S4000x128, .f32⟩
  | .local _ .vmem, ⟨10, _⟩ => ⟨S4000x128, .f32⟩
  | .local _ .vmem, ⟨11, _⟩ => ⟨S4000x1, .f32⟩
  | .local _ .vmem, ⟨12, _⟩ => ⟨S4000x1, .f32⟩
  | .local _ .vmem, ⟨13, _⟩ => ⟨S1x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  reduces_S4000x128_S4000 : S4000x128.Reduces [1] S4000
  shapeCasts_S4000_S4000x1 : S4000.ShapeCasts S4000x1
  broadcasts_S4000x1_S4000x128 : S4000x1.Broadcasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S4000x128_S4000x128_0_0 : (Rect.unit (s := S4000x128) ![0, 0] S4000x128.size inb_S4000x128_S4000x128_0_0).PackedRows (EltTy.packing .bf16)
  bcast_S_S100000x128 : S_.BroadcastsInDim S100000x128 (![] : Fin 0 → Fin S100000x128.rank)
  shapeCasts_S4000x128_S4000x128 : S4000x128.ShapeCasts S4000x128
  scatter_S100000_S1600000x1_S1600000_n_0_0_1_wf : ScatterDims.WF S100000 S1600000x1 S1600000 [] [0] [0] 1
  dot_S4000x128_S128x128_S4000x128_1_0_0_1_n_n_wf : DotDims.WF S4000x128 S128x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .bf16 = 32 ∨ (Rect.block (s := S100000x128) S4000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S100000x128.size a
  hwx1_3 : ∀ i : grid1.Coords, EltTy.bits .f32 = 32 ∨ (Rect.block (s := S100000x128) S4000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S100000x128.size a
  hwx1_4 : ∀ i : grid1.Coords, EltTy.bits .f32 = 32 ∨ (Rect.block (s := S100000x128) S4000x128.size (cc1_transform_4 i) (hinb1_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v29) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S4000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v30) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S100000 : Shape := ⟨1, ![100000]⟩
abbrev S100000x1 : Shape := ⟨2, ![100000, 1]⟩
abbrev S1x128 : Shape := ⟨2, ![1, 128]⟩
abbrev S1600000x1 : Shape := ⟨2, ![1600000, 1]⟩
abbrev S1600000x128 : Shape := ⟨2, ![1600000, 128]⟩

abbrev nBuf : Space → Nat
  | .hbm => 96
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S_, .f32⟩
  | .hbm, ⟨8, _⟩ => ⟨S100000, .f32⟩
  | .hbm, ⟨9, _⟩ => ⟨S100000x1, .f32⟩
  | .hbm, ⟨10, _⟩ => ⟨S_, .f32⟩
  | .hbm, ⟨11, _⟩ => ⟨S100000x1, .f32⟩
  | .hbm, ⟨12, _⟩ => ⟨S100000x1, .f32⟩
  | .hbm, ⟨13, _⟩ => ⟨S_, .i32⟩
  | .hbm, ⟨14, _⟩ => ⟨S_, .f32⟩
  | .hbm, ⟨15, _⟩ => ⟨S100000, .f32⟩
  | .hbm, ⟨16, _⟩ => ⟨S100000x1, .f32⟩
  | .hbm, ⟨17, _⟩ => ⟨S_, .f32⟩
  | .hbm, ⟨18, _⟩ => ⟨S100000x1, .f32⟩
  | .hbm, ⟨19, _⟩ => ⟨S100000x1, .f32⟩
  | .hbm, ⟨20, _⟩ => ⟨S100000x128, .f32⟩
  | .hbm, ⟨21, _⟩ => ⟨S100000x128, .f32⟩
  | .hbm, ⟨22, _⟩ => ⟨S100000x128, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000x1, .f32⟩
  | .hbm, ⟨29, _⟩ => ⟨S100000x1, .f32⟩
  | .hbm, ⟨30, _⟩ => ⟨S100000x1, .f32⟩
  | .hbm, ⟨31, _⟩ => ⟨S_, .f32⟩
  | .hbm, ⟨32, _⟩ => ⟨S_, .i1⟩
  | .hbm, ⟨33, _⟩ => ⟨S_, .f32⟩
  | .hbm, ⟨34, _⟩ => ⟨S_, .f32⟩
  | .hbm, ⟨35, _⟩ => ⟨S100000x1, .f32⟩
  | .hbm, ⟨36, _⟩ => ⟨S100000x1, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x1, .f32⟩
  | .hbm, ⟨45, _⟩ => ⟨S100000x1, .f32⟩
  | .hbm, ⟨46, _⟩ => ⟨S100000x128, .f32⟩
  | .hbm, ⟨47, _⟩ => ⟨S100000x128, .f32⟩
  | .hbm, ⟨48, _⟩ => ⟨S1x128, .f32⟩
  | .hbm, ⟨49, _⟩ => ⟨S100000x128, .f32⟩
  | .hbm, ⟨50, _⟩ => ⟨S100000x128, .f32⟩
  | .hbm, ⟨51, _⟩ => ⟨S_, .f32⟩
  | .hbm, ⟨52, _⟩ => ⟨S1600000, .f32⟩
  | .hbm, ⟨53, _⟩ => ⟨S_, .f32⟩
  | .hbm, ⟨54, _⟩ => ⟨S100000, .f32⟩
  | .hbm, ⟨55, _⟩ => ⟨S1600000x1, .i32⟩
  | .hbm, ⟨56, _⟩ => ⟨S100000, .f32⟩
  | .hbm, ⟨57, _⟩ => ⟨S_, .f32⟩
  | .hbm, ⟨58, _⟩ => ⟨S100000, .f32⟩
  | .hbm, ⟨59, _⟩ => ⟨S1600000x1, .i32⟩
  | .hbm, ⟨60, _⟩ => ⟨S100000, .f32⟩
  | .hbm, ⟨61, _⟩ => ⟨S_, .f32⟩
  | .hbm, ⟨62, _⟩ => ⟨S100000, .f32⟩
  | .hbm, ⟨63, _⟩ => ⟨S100000, .f32⟩
  | .hbm, ⟨64, _⟩ => ⟨S100000, .f32⟩
  | .hbm, ⟨65, _⟩ => ⟨S100000x1, .f32⟩
  | .hbm, ⟨66, _⟩ => ⟨S_, .f32⟩
  | .hbm, ⟨67, _⟩ => ⟨S100000, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S1600000x128, .f32⟩
  | .hbm, ⟨83, _⟩ => ⟨S_, .f32⟩
  | .hbm, ⟨84, _⟩ => ⟨S100000x128, .f32⟩
  | .hbm, ⟨85, _⟩ => ⟨S1600000x1, .i32⟩
  | .hbm, ⟨86, _⟩ => ⟨S100000x128, .f32⟩
  | .hbm, ⟨87, _⟩ => ⟨S100000x128, .f32⟩
  | .hbm, ⟨88, _⟩ => ⟨S100000x128, .f32⟩
  | .hbm, ⟨89, _⟩ => ⟨S1x128, .f32⟩
  | .hbm, ⟨90, _⟩ => ⟨S100000x128, .f32⟩
  | .hbm, ⟨91, _⟩ => ⟨S100000x128, .f32⟩
  | .hbm, ⟨92, _⟩ => ⟨S_, .f32⟩
  | .hbm, ⟨93, _⟩ => ⟨S100000x128, .f32⟩
  | .hbm, ⟨94, _⟩ => ⟨S100000x128, .f32⟩
  | .hbm, ⟨95, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_call0_cst : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_cst_0 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_cst_1 : Ref sig .tc := ⟨.hbm, 24, rfl⟩
abbrev main_call0_call0_v8 : Ref sig .tc := ⟨.hbm, 25, rfl⟩
abbrev main_call0_call0_cst_2 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_call0_v12 : Ref sig .tc := ⟨.hbm, 30, rfl⟩
abbrev main_call0_call0_cst_3 : Ref sig .tc := ⟨.hbm, 31, rfl⟩
abbrev main_call0_call0_v13 : Ref sig .tc := ⟨.hbm, 32, rfl⟩
abbrev main_call0_call0_cst_4 : Ref sig .tc := ⟨.hbm, 33, rfl⟩
abbrev main_call0_call0_call0_v0 : Ref sig .tc := ⟨.hbm, 34, rfl⟩
abbrev main_call0_call0_call0_v1 : Ref sig .tc := ⟨.hbm, 35, rfl⟩
abbrev main_call0_v0 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_cst_1 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_cst_2 : Ref sig .tc := ⟨.hbm, 51, rfl⟩
abbrev main_v17 : Ref sig .tc := ⟨.hbm, 52, rfl⟩
abbrev main_cst_3 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_cst_4 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_cst_5 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_cst_6 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_c_7 : Ref sig .tc := ⟨.hbm, 74, rfl⟩
abbrev main_v35 : Ref sig .tc := ⟨.hbm, 75, rfl⟩
abbrev main_v36 : Ref sig .tc := ⟨.hbm, 76, rfl⟩
abbrev main_c_8 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_cst_9 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_call1_cst : Ref sig .tc := ⟨.hbm, 92, rfl⟩
abbrev main_call1_v0 : Ref sig .tc := ⟨.hbm, 93, rfl⟩
abbrev main_v50 : Ref sig .tc := ⟨.hbm, 94, rfl⟩
abbrev main_v51 : Ref sig .tc := ⟨.hbm, 95, rfl⟩

abbrev nD : Nat := 1
abbrev τ : Topo := Topo.v7x

variable {F : FTy → Type} [FloatOps F]

class Facts₀ : Prop where
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KRun.lean ====
import proofs.«146006_j65429531787486_2_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

/-!
# The kernel program's run, and what its two regions are entered with

The program is four segments: host operations, a first region (25 blocks of 4000 rows), host operations, a second
region (25 blocks). This module states the run with the result buffer named, writes the host operations' results as
closed terms of their argument buffers, and reads the contents each region is entered with back to the launch memory:

* the first region is entered with the feature matrix and the weight matrix as launched, the out-degree factor
  computed from the source indices, and the two affine vectors laid out as one-row matrices;
* the second region is entered with the aggregation (the first region's output gathered by source index, widened,
  and scatter-added by destination index), the in-degree factor computed from the destination indices, the bias as
  a one-row matrix, and the feature matrix as launched;
* the result buffer ends at what the second region's pipeline leaves in its output array.
-/

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal

variable (m : (ℓ : Loc nD τ sig) → Buf (Elt Ideal) ℓ) (ρ : Dev nD → PrngReg)

section Launch
open Cert.KernelIdeal.Gen

local notation "𝕄" => MT nD τ sig Unit (Elt Ideal) ℕ (UR sig nD τ) ℕ

/-! ## The run, with the result buffer named

The whole program, run on every core from any launch memory with zero counters, terminates without fault;
in every final state the result buffer holds the last boundary's contents and the seven arguments are as launched. -/

set_option backward.isDefEq.respectTransparency.types false in
theorem run_named : θ_run defs (onTc (τ := τ) (main (F := Ideal))) ⟨m, fun _ => 0, ρ⟩ (fun r => ∀ c : Dev nD,
      r.2.mem ((c.tc : Thread nD τ).loc main_v30) = Gen.W4 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := Ideal)) adm (pdats m ρ) () cellOf_inj emb₁ defs₀ 𝒱₀ Gen.L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach Gen.L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v30 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Launch

/-! ## The host operations' results as closed terms -/

section Terms
open Cert.KernelIdeal.Facts₀ Cert.KernelIdeal.Facts
open Idealize.ShloMosaic.ValueIdx

/-- The degree factor of every node, as a column: the number of edges whose index entry is the node, counted by a
    scatter-add of ones into zeros, raised to at least one, its reciprocal square root taken, then laid out `[n, 1]`. -/
def KTerm.normOf (idx : IVec S1600000 32) : FVec Ideal S100000x1 .f32 :=
  broadcastInDim S100000x1 ![0] bcast_S100000_S100000x1_0 (Host.rsqrt (maximumf (Host.scatterAdd scatter_S100000_S1600000x1_S1600000_n_0_0_1 (broadcastInDim S100000 ![] bcast_S_S100000 (constant (F := Ideal) S_ .f32 0x00000000#32)) (broadcastInDim S1600000x1 ![0] bcast_S1600000_S1600000x1_0 idx) (broadcastInDim S1600000 ![] bcast_S_S1600000 (constant (F := Ideal) S_ .f32 0x3F800000#32))) (broadcastInDim S100000 ![] bcast_S_S100000 (constant (F := Ideal) S_ .f32 0x3F800000#32))))

/-- The gather's row indices: a negative source index wraps around by the number of nodes; laid out `[e, 1]`. -/
def KTerm.gidx (src : IVec S1600000 32) : IVec S1600000x1 32 :=
  broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)

/-- The aggregation: each edge's source row of `T`, widened, added into its destination row of a zero matrix. -/
def KTerm.agg (T : FVec Ideal S100000x128 .bf16) (src dst : IVec S1600000 32) : FVec Ideal S100000x128 .f32 :=
  Host.scatterAdd scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 dst) (extf .f32 (Host.gather gather_S100000x128_S1600000x1_S1600000x128_1_0_n_n_0_1_1128 T (KTerm.gidx src)) bitsLt_bf16_f32)

/-- A vector of 128 entries as a matrix of one row. -/
def KTerm.row (v : FVec Ideal S128 .f32) : FVec Ideal S1x128 .f32 :=
  shapeCast S1x128 v shapeCasts_S128_S1x128

/-! ## What a stretch of host operations leaves in a buffer, from any contents

Each result is the operations' functions composed, applied to the contents of the argument buffers. -/

variable (V : Valuation τ sig (Elt Ideal))

theorem host0_v10 : StableHlo.after Gen.hostOps0 V (Proc.devRef .tc main_v10) = KTerm.normOf (V (Proc.devRef .tc main_arg1)) := by
  after_results; rfl
theorem host0_v14 : StableHlo.after Gen.hostOps0 V (Proc.devRef .tc main_v14) = KTerm.normOf (V (Proc.devRef .tc main_arg2)) := by
  after_results; rfl
theorem host0_v15 : StableHlo.after Gen.hostOps0 V (Proc.devRef .tc main_v15) = KTerm.row (V (Proc.devRef .tc main_arg5)) := by
  after_results; rfl
theorem host0_v16 : StableHlo.after Gen.hostOps0 V (Proc.devRef .tc main_v16) = KTerm.row (V (Proc.devRef .tc main_arg6)) := by
  after_results; rfl
theorem host0_v17 : StableHlo.after Gen.hostOps0 V (Proc.devRef .tc main_v17) = KTerm.row (V (Proc.devRef .tc main_arg4)) := by
  after_results; rfl
theorem host1_v29 : StableHlo.after Gen.hostOps1 V (Proc.devRef .tc main_v29)
    = KTerm.agg (V (Proc.devRef .tc main_v18)) (V (Proc.devRef .tc main_arg1)) (V (Proc.devRef .tc main_arg2)) := by
  after_results; rfl

/-! ## A buffer no operation of a stretch writes keeps its contents -/

/-- The buffer is the result of none of the operations listed: each operation writes only its own result reference,
    which differs from the buffer's. -/
local macro "unwritten" : tactic => `(tactic| (
  refine StableHlo.after_of_forall_not_mem _ _ (List.forall_iff_forall_mem.mp ?_)
  simp only [Gen.hostOps0, Gen.hostOps1, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

variable (c : Dev nD)

/-! ### The arguments at the first region's entry: the first stretch writes none of them -/

theorem W1_arg0 : Gen.W1 m ρ c (Proc.devRef .tc main_arg0) = m ((c : Thread nD τ).loc main_arg0) :=
  (show StableHlo.after Gen.hostOps0 (Gen.W0 m ρ c) (Proc.devRef .tc main_arg0) = Gen.W0 m ρ c (Proc.devRef .tc main_arg0) by unwritten).trans rfl
theorem W1_arg1 : Gen.W1 m ρ c (Proc.devRef .tc main_arg1) = m ((c : Thread nD τ).loc main_arg1) :=
  (show StableHlo.after Gen.hostOps0 (Gen.W0 m ρ c) (Proc.devRef .tc main_arg1) = Gen.W0 m ρ c (Proc.devRef .tc main_arg1) by unwritten).trans rfl
theorem W1_arg2 : Gen.W1 m ρ c (Proc.devRef .tc main_arg2) = m ((c : Thread nD τ).loc main_arg2) :=
  (show StableHlo.after Gen.hostOps0 (Gen.W0 m ρ c) (Proc.devRef .tc main_arg2) = Gen.W0 m ρ c (Proc.devRef .tc main_arg2) by unwritten).trans rfl
theorem W1_arg3 : Gen.W1 m ρ c (Proc.devRef .tc main_arg3) = m ((c : Thread nD τ).loc main_arg3) :=
  (show StableHlo.after Gen.hostOps0 (Gen.W0 m ρ c) (Proc.devRef .tc main_arg3) = Gen.W0 m ρ c (Proc.devRef .tc main_arg3) by unwritten).trans rfl

/-! ### The first region's entry contents -/

theorem V1_arg0 : Gen.V1 m ρ c main_arg0 = m ((c : Thread nD τ).loc main_arg0) := W1_arg0 m ρ c
theorem V1_arg3 : Gen.V1 m ρ c main_arg3 = m ((c : Thread nD τ).loc main_arg3) := W1_arg3 m ρ c
theorem V1_v10 : Gen.V1 m ρ c main_v10 = KTerm.normOf (m ((c : Thread nD τ).loc main_arg1)) :=
  host0_v10 (Gen.W0 m ρ c)
theorem V1_v15 : Gen.V1 m ρ c main_v15 = KTerm.row (m ((c : Thread nD τ).loc main_arg5)) :=
  host0_v15 (Gen.W0 m ρ c)
theorem V1_v16 : Gen.V1 m ρ c main_v16 = KTerm.row (m ((c : Thread nD τ).loc main_arg6)) :=
  host0_v16 (Gen.W0 m ρ c)

/-! ### Across the first region: its output array holds what the pipeline leaves, an input array and every buffer
    that is no array of the region what was there -/

theorem W2_arg0 : Gen.W2 m ρ c (Proc.devRef .tc main_arg0) = m ((c : Thread nD τ).loc main_arg0) :=
  ((Gen.W2_arr m ρ c 0).trans (((Gen.dat0 (Gen.V1 m ρ) c).arrAt_in 0 rfl _).trans (Gen.A_eq0 (Gen.V1 m ρ) c 0))).trans (W1_arg0 m ρ c)
theorem W2_arg1 : Gen.W2 m ρ c (Proc.devRef .tc main_arg1) = m ((c : Thread nD τ).loc main_arg1) :=
  (Gen.W2_of_ne m ρ c main_arg1 (by decide)).trans (W1_arg1 m ρ c)
theorem W2_arg2 : Gen.W2 m ρ c (Proc.devRef .tc main_arg2) = m ((c : Thread nD τ).loc main_arg2) :=
  (Gen.W2_of_ne m ρ c main_arg2 (by decide)).trans (W1_arg2 m ρ c)
theorem W2_v14 : Gen.W2 m ρ c (Proc.devRef .tc main_v14) = KTerm.normOf (m ((c : Thread nD τ).loc main_arg2)) :=
  (Gen.W2_of_ne m ρ c main_v14 (by decide)).trans (host0_v14 (Gen.W0 m ρ c))
theorem W2_v17 : Gen.W2 m ρ c (Proc.devRef .tc main_v17) = KTerm.row (m ((c : Thread nD τ).loc main_arg4)) :=
  (Gen.W2_of_ne m ρ c main_v17 (by decide)).trans (host0_v17 (Gen.W0 m ρ c))
theorem W2_v18 : Gen.W2 m ρ c (Proc.devRef .tc main_v18) = (Gen.dat0 (Gen.V1 m ρ) c).arrAt 5 cfg0.N :=
  Gen.W2_arr m ρ c 5

/-! ### The second region's entry contents -/

theorem V3_arg0 : Gen.V3 m ρ c main_arg0 = m ((c : Thread nD τ).loc main_arg0) :=
  (show StableHlo.after Gen.hostOps1 (Gen.W2 m ρ c) (Proc.devRef .tc main_arg0) = Gen.W2 m ρ c (Proc.devRef .tc main_arg0) by unwritten).trans (W2_arg0 m ρ c)
theorem V3_v14 : Gen.V3 m ρ c main_v14 = KTerm.normOf (m ((c : Thread nD τ).loc main_arg2)) :=
  (show StableHlo.after Gen.hostOps1 (Gen.W2 m ρ c) (Proc.devRef .tc main_v14) = Gen.W2 m ρ c (Proc.devRef .tc main_v14) by unwritten).trans (W2_v14 m ρ c)
theorem V3_v17 : Gen.V3 m ρ c main_v17 = KTerm.row (m ((c : Thread nD τ).loc main_arg4)) :=
  (show StableHlo.after Gen.hostOps1 (Gen.W2 m ρ c) (Proc.devRef .tc main_v17) = Gen.W2 m ρ c (Proc.devRef .tc main_v17) by unwritten).trans (W2_v17 m ρ c)
theorem V3_v29 : Gen.V3 m ρ c main_v29
    = KTerm.agg ((Gen.dat0 (Gen.V1 m ρ) c).arrAt 5 cfg0.N) (m ((c : Thread nD τ).loc main_arg1)) (m ((c : Thread nD τ).loc main_arg2)) :=
  (host1_v29 (Gen.W2 m ρ c)).trans (by rw [W2_v18 m ρ c, W2_arg1 m ρ c, W2_arg2 m ρ c])

/-! ### The result buffer at the end: the second region's output array, at what its pipeline leaves -/

theorem W4_out : Gen.W4 m ρ c (Proc.devRef .tc main_v30) = (Gen.dat1 (Gen.V3 m ρ) c).arrAt 4 cfg1.N :=
  Gen.W4_arr m ρ c 4

/-! ## The one-row layout at an entry -/

/-- The single row of the one-row matrix holds the vector's entries in order. -/
theorem KTerm.row_apply (v : FVec Ideal S128 .f32) (k : Fin 128) : KTerm.row v (ix2 (0 : Fin 1) k) = v (ix1 k) :=
  shapeCast_a_1a_apply v shapeCasts_S128_S1x128 0 k

end Terms

end Cert.KernelIdeal.Run

end
-- ==== Proof.RefRun.lean ====
/-
  The reference program's run. Its @main calls three functions (a standard deviation that calls a variance
  that calls a choice between two values, and a maximum with zero); a call executes the callee's body on the
  operands, so @main is one straight line of 89 host operations, each writing one buffer of its own: the callees'
  operations stand at their call sites, over the buffers that call names. After the run every buffer holds the
  fold of those operations, in order, over the contents at launch; the seven argument buffers are written by no
  operation and keep their contents.
-/
import proofs.«146006_j65429531787486_2_alg».proof.Proof.Gen.ReferenceIdeal
import Idealize.ShloMosaic.Lib.StableHlo.Run

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

/-- @main's 89 operations in program order, each call replaced by its callee's operations over the call's buffers. -/
abbrev ops : List (HloOp τ sig (Elt F)) :=
  [
    -- the row mean of x: the row sum started from 0, kept as a column, divided by 128
    nullary main_cst (constant S_ .f32 0x00000000#32),
    binary main_arg0 main_cst main_v0 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v0 main_v1 (broadcastInDim S100000x1 ![0] bcast_S100000_S100000x1_0 : (⟨S100000, .f32⟩ : BufTy).Contents (Elt F) → (⟨S100000x1, .f32⟩ : BufTy).Contents (Elt F)),
    nullary main_cst_0 (constant S_ .f32 0x43000000#32),
    unary main_cst_0 main_v2 (broadcastInDim S100000x1 ![] bcast_S_S100000x1 : (⟨S_, .f32⟩ : BufTy).Contents (Elt F) → (⟨S100000x1, .f32⟩ : BufTy).Contents (Elt F)),
    binary main_v1 main_v2 main_v3 (Host.divf : (⟨S100000x1, .f32⟩ : BufTy).Contents (Elt F) → (⟨S100000x1, .f32⟩ : BufTy).Contents (Elt F) → (⟨S100000x1, .f32⟩ : BufTy).Contents (Elt F)),
    -- the integer 1: how many degrees of freedom the standard deviation gives up
    nullary main_c (constantI S_ 32 1#32),
    -- the variance of each row. Once more the row mean (the sum from 0, over 128), spread over the row;
    -- the deviation of x from it; its square
    TRef.nullary main_call0.call0.cst (constant S_ .f32 0x00000000#32),
    TRef.binary (.of main_arg0 : TRef sig ⟨S100000x128, .f32⟩) main_call0.call0.cst main_call0.call0.v0 (fun x v => Host.reduceAdd x v reducesTo_S100000x128_S100000_d1 h_S_),
    TRef.unary main_call0.call0.v0 main_call0.call0.v1 (broadcastInDim S100000x1 ![0] bcast_S100000_S100000x1_0),
    TRef.nullary main_call0.call0.cst_0 (constant S_ .f32 0x43000000#32),
    TRef.unary main_call0.call0.cst_0 main_call0.call0.v2 (broadcastInDim S100000x1 ![] bcast_S_S100000x1),
    TRef.binary main_call0.call0.v1 main_call0.call0.v2 main_call0.call0.v3 Host.divf,
    TRef.unary main_call0.call0.v3 main_call0.call0.v4 (broadcastInDim S100000x128 ![0, 1] bcast_S100000x1_S100000x128_0_1),
    TRef.binary (.of main_arg0 : TRef sig ⟨S100000x128, .f32⟩) main_call0.call0.v4 main_call0.call0.v5 subf,
    TRef.binary main_call0.call0.v5 main_call0.call0.v5 main_call0.call0.v6 mulf,
    -- the divisor 128 - 1 (the integer 1 made a float); the row sum of the squares from 0, as a column;
    -- the divisor as a column; their quotient
    TRef.unary (.of main_c : TRef sig ⟨S_, .i32⟩) main_call0.call0.v7 (sitofp .f32),
    TRef.nullary main_call0.call0.cst_1 (constant S_ .f32 0x43000000#32),
    TRef.binary main_call0.call0.cst_1 main_call0.call0.v7 main_call0.call0.v8 subf,
    TRef.nullary main_call0.call0.cst_2 (constant S_ .f32 0x00000000#32),
    TRef.binary main_call0.call0.v6 main_call0.call0.cst_2 main_call0.call0.v9 (fun x v => Host.reduceAdd x v reducesTo_S100000x128_S100000_d1 h_S_),
    TRef.unary main_call0.call0.v9 main_call0.call0.v10 (broadcastInDim S100000x1 ![0] bcast_S100000_S100000x1_0),
    TRef.unary main_call0.call0.v8 main_call0.call0.v11 (broadcastInDim S100000x1 ![] bcast_S_S100000x1),
    TRef.binary main_call0.call0.v10 main_call0.call0.v11 main_call0.call0.v12 Host.divf,
    -- the test 128 - 1 > 0, and the word that reads "not a number", the value wherever the test fails
    TRef.nullary main_call0.call0.cst_3 (constant S_ .f32 0x00000000#32),
    TRef.binary main_call0.call0.v8 main_call0.call0.cst_3 main_call0.call0.v13 (cmpf .ogt),
    TRef.nullary main_call0.call0.cst_4 (constant S_ .f32 0x7FC00000#32),
    -- the choice: that word as a column, then the quotient where the test holds and the word elsewhere
    TRef.unary main_call0.call0.cst_4 main_call0.call0.call0.v0 id,
    TRef.unary main_call0.call0.call0.v0 main_call0.call0.call0.v1 (broadcastInDim S100000x1 ![] bcast_S_S100000x1),
    TRef.ternary main_call0.call0.v13 main_call0.call0.v12 main_call0.call0.call0.v1 main_call0.call0.call0.v2 (fun p a b => select (broadcastInDim S100000x1 ![] bcast_S_S100000x1 p) a b),
    -- the standard deviation: the square root of the chosen column
    TRef.unary main_call0.call0.call0.v2 main_call0.v1 Host.sqrt,
    -- the normalized row (a2 * (x - mean)) / (std + eps) + b2: the mean spread over the row, a2 and b2 (rows)
    -- spread over the matrix, std + eps (a column) spread over the row
    unary main_v3 main_v5 (broadcastInDim S100000x128 ![0, 1] bcast_S100000x1_S100000x128_0_1 : (⟨S100000x1, .f32⟩ : BufTy).Contents (Elt F) → (⟨S100000x128, .f32⟩ : BufTy).Contents (Elt F)),
    binary main_arg0 main_v5 main_v6 (subf : (⟨S100000x128, .f32⟩ : BufTy).Contents (Elt F) → (⟨S100000x128, .f32⟩ : BufTy).Contents (Elt F) → (⟨S100000x128, .f32⟩ : BufTy).Contents (Elt F)),
    unary main_arg5 main_v7 (broadcastInDim S1x128 ![1] bcast_S128_S1x128_1 : (⟨S128, .f32⟩ : BufTy).Contents (Elt F) → (⟨S1x128, .f32⟩ : BufTy).Contents (Elt F)),
    unary main_v7 main_v8 (broadcastInDim S100000x128 ![0, 1] bcast_S1x128_S100000x128_0_1 : (⟨S1x128, .f32⟩ : BufTy).Contents (Elt F) → (⟨S100000x128, .f32⟩ : BufTy).Contents (Elt F)),
    binary main_v8 main_v6 main_v9 (mulf : (⟨S100000x128, .f32⟩ : BufTy).Contents (Elt F) → (⟨S100000x128, .f32⟩ : BufTy).Contents (Elt F) → (⟨S100000x128, .f32⟩ : BufTy).Contents (Elt F)),
    nullary main_cst_1 (constant S_ .f32 0x358637BD#32),
    unary main_cst_1 main_v10 (broadcastInDim S100000x1 ![] bcast_S_S100000x1 : (⟨S_, .f32⟩ : BufTy).Contents (Elt F) → (⟨S100000x1, .f32⟩ : BufTy).Contents (Elt F)),
    binary main_v4 main_v10 main_v11 (addf : (⟨S100000x1, .f32⟩ : BufTy).Contents (Elt F) → (⟨S100000x1, .f32⟩ : BufTy).Contents (Elt F) → (⟨S100000x1, .f32⟩ : BufTy).Contents (Elt F)),
    unary main_v11 main_v12 (broadcastInDim S100000x128 ![0, 1] bcast_S100000x1_S100000x128_0_1 : (⟨S100000x1, .f32⟩ : BufTy).Contents (Elt F) → (⟨S100000x128, .f32⟩ : BufTy).Contents (Elt F)),
    binary main_v9 main_v12 main_v13 (Host.divf : (⟨S100000x128, .f32⟩ : BufTy).Contents (Elt F) → (⟨S100000x128, .f32⟩ : BufTy).Contents (Elt F) → (⟨S100000x128, .f32⟩ : BufTy).Contents (Elt F)),
    unary main_arg6 main_v14 (broadcastInDim S1x128 ![1] bcast_S128_S1x128_1 : (⟨S128, .f32⟩ : BufTy).Contents (Elt F) → (⟨S1x128, .f32⟩ : BufTy).Contents (Elt F)),
    unary main_v14 main_v15 (broadcastInDim S100000x128 ![0, 1] bcast_S1x128_S100000x128_0_1 : (⟨S1x128, .f32⟩ : BufTy).Contents (Elt F) → (⟨S100000x128, .f32⟩ : BufTy).Contents (Elt F)),
    binary main_v13 main_v15 main_v16 (addf : (⟨S100000x128, .f32⟩ : BufTy).Contents (Elt F) → (⟨S100000x128, .f32⟩ : BufTy).Contents (Elt F) → (⟨S100000x128, .f32⟩ : BufTy).Contents (Elt F)),
    -- the degrees: a one per edge, added from zeros at the edge's source end, and again at its destination end
    nullary main_cst_2 (constant S_ .f32 0x3F800000#32),
    unary main_cst_2 main_v17 (broadcastInDim S1600000 ![] bcast_S_S1600000 : (⟨S_, .f32⟩ : BufTy).Contents (Elt F) → (⟨S1600000, .f32⟩ : BufTy).Contents (Elt F)),
    nullary main_cst_3 (constant S_ .f32 0x00000000#32),
    unary main_cst_3 main_v18 (broadcastInDim S100000 ![] bcast_S_S100000 : (⟨S_, .f32⟩ : BufTy).Contents (Elt F) → (⟨S100000, .f32⟩ : BufTy).Contents (Elt F)),
    unary main_arg1 main_v19 (broadcastInDim S1600000x1 ![0] bcast_S1600000_S1600000x1_0 : (⟨S1600000, .i32⟩ : BufTy).Contents (Elt F) → (⟨S1600000x1, .i32⟩ : BufTy).Contents (Elt F)),
    ternary main_v18 main_v19 main_v17 main_v20 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_4 (constant S_ .f32 0x00000000#32),
    unary main_cst_4 main_v21 (broadcastInDim S100000 ![] bcast_S_S100000 : (⟨S_, .f32⟩ : BufTy).Contents (Elt F) → (⟨S100000, .f32⟩ : BufTy).Contents (Elt F)),
    unary main_arg2 main_v22 (broadcastInDim S1600000x1 ![0] bcast_S1600000_S1600000x1_0 : (⟨S1600000, .i32⟩ : BufTy).Contents (Elt F) → (⟨S1600000x1, .i32⟩ : BufTy).Contents (Elt F)),
    ternary main_v21 main_v22 main_v17 main_v23 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    -- the two degree factors: the reciprocal square root of the larger of the degree and 1, each as a column
    nullary main_cst_5 (constant S_ .f32 0x3F800000#32),
    unary main_cst_5 main_v24 (broadcastInDim S100000 ![] bcast_S_S100000 : (⟨S_, .f32⟩ : BufTy).Contents (Elt F) → (⟨S100000, .f32⟩ : BufTy).Contents (Elt F)),
    binary main_v20 main_v24 main_v25 (maximumf : (⟨S100000, .f32⟩ : BufTy).Contents (Elt F) → (⟨S100000, .f32⟩ : BufTy).Contents (Elt F) → (⟨S100000, .f32⟩ : BufTy).Contents (Elt F)),
    unary main_v25 main_v26 (Host.rsqrt : (⟨S100000, .f32⟩ : BufTy).Contents (Elt F) → (⟨S100000, .f32⟩ : BufTy).Contents (Elt F)),
    unary main_v26 main_v27 (broadcastInDim S100000x1 ![0] bcast_S100000_S100000x1_0 : (⟨S100000, .f32⟩ : BufTy).Contents (Elt F) → (⟨S100000x1, .f32⟩ : BufTy).Contents (Elt F)),
    nullary main_cst_6 (constant S_ .f32 0x3F800000#32),
    unary main_cst_6 main_v28 (broadcastInDim S100000 ![] bcast_S_S100000 : (⟨S_, .f32⟩ : BufTy).Contents (Elt F) → (⟨S100000, .f32⟩ : BufTy).Contents (Elt F)),
    binary main_v23 main_v28 main_v29 (maximumf : (⟨S100000, .f32⟩ : BufTy).Contents (Elt F) → (⟨S100000, .f32⟩ : BufTy).Contents (Elt F) → (⟨S100000, .f32⟩ : BufTy).Contents (Elt F)),
    unary main_v29 main_v30 (Host.rsqrt : (⟨S100000, .f32⟩ : BufTy).Contents (Elt F) → (⟨S100000, .f32⟩ : BufTy).Contents (Elt F)),
    unary main_v30 main_v31 (broadcastInDim S100000x1 ![0] bcast_S100000_S100000x1_0 : (⟨S100000, .f32⟩ : BufTy).Contents (Elt F) → (⟨S100000x1, .f32⟩ : BufTy).Contents (Elt F)),
    -- the normalized rows scaled by the out-degree factor, then times the weights (a sum over the 128 columns)
    unary main_v27 main_v32 (broadcastInDim S100000x128 ![0, 1] bcast_S100000x1_S100000x128_0_1 : (⟨S100000x1, .f32⟩ : BufTy).Contents (Elt F) → (⟨S100000x128, .f32⟩ : BufTy).Contents (Elt F)),
    binary main_v16 main_v32 main_v33 (mulf : (⟨S100000x128, .f32⟩ : BufTy).Contents (Elt F) → (⟨S100000x128, .f32⟩ : BufTy).Contents (Elt F) → (⟨S100000x128, .f32⟩ : BufTy).Contents (Elt F)),
    binary main_v33 main_arg3 main_v34 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    -- the source ends as row numbers: a negative one moved up by the number of rows, the result a column
    nullary main_c_7 (constantI S_ 32 0#32),
    unary main_c_7 main_v35 (broadcastInDim S1600000 ![] bcast_S_S1600000 : (⟨S_, .i32⟩ : BufTy).Contents (Elt F) → (⟨S1600000, .i32⟩ : BufTy).Contents (Elt F)),
    binary main_arg1 main_v35 main_v36 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 100000#32),
    unary main_c_8 main_v37 (broadcastInDim S1600000 ![] bcast_S_S1600000 : (⟨S_, .i32⟩ : BufTy).Contents (Elt F) → (⟨S1600000, .i32⟩ : BufTy).Contents (Elt F)),
    binary main_arg1 main_v37 main_v38 (addi : (⟨S1600000, .i32⟩ : BufTy).Contents (Elt F) → (⟨S1600000, .i32⟩ : BufTy).Contents (Elt F) → (⟨S1600000, .i32⟩ : BufTy).Contents (Elt F)),
    ternary main_v36 main_v38 main_arg1 main_v39 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v39 main_v40 (broadcastInDim S1600000x1 ![0] bcast_S1600000_S1600000x1_0 : (⟨S1600000, .i32⟩ : BufTy).Contents (Elt F) → (⟨S1600000x1, .i32⟩ : BufTy).Contents (Elt F)),
    -- the projected rows read at the source ends, and added from zeros at the destination ends
    binary main_v34 main_v40 main_v41 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_9 (constant S_ .f32 0x00000000#32),
    unary main_cst_9 main_v42 (broadcastInDim S100000x128 ![] bcast_S_S100000x128 : (⟨S_, .f32⟩ : BufTy).Contents (Elt F) → (⟨S100000x128, .f32⟩ : BufTy).Contents (Elt F)),
    unary main_arg2 main_v43 (broadcastInDim S1600000x1 ![0] bcast_S1600000_S1600000x1_0 : (⟨S1600000, .i32⟩ : BufTy).Contents (Elt F) → (⟨S1600000x1, .i32⟩ : BufTy).Contents (Elt F)),
    ternary main_v42 main_v43 main_v41 main_v44 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    -- that sum times the in-degree factor, plus the bias (a row spread over the matrix)
    unary main_v31 main_v45 (broadcastInDim S100000x128 ![0, 1] bcast_S100000x1_S100000x128_0_1 : (⟨S100000x1, .f32⟩ : BufTy).Contents (Elt F) → (⟨S100000x128, .f32⟩ : BufTy).Contents (Elt F)),
    binary main_v44 main_v45 main_v46 (mulf : (⟨S100000x128, .f32⟩ : BufTy).Contents (Elt F) → (⟨S100000x128, .f32⟩ : BufTy).Contents (Elt F) → (⟨S100000x128, .f32⟩ : BufTy).Contents (Elt F)),
    unary main_arg4 main_v47 (broadcastInDim S1x128 ![1] bcast_S128_S1x128_1 : (⟨S128, .f32⟩ : BufTy).Contents (Elt F) → (⟨S1x128, .f32⟩ : BufTy).Contents (Elt F)),
    unary main_v47 main_v48 (broadcastInDim S100000x128 ![0, 1] bcast_S1x128_S100000x128_0_1 : (⟨S1x128, .f32⟩ : BufTy).Contents (Elt F) → (⟨S100000x128, .f32⟩ : BufTy).Contents (Elt F)),
    binary main_v46 main_v48 main_v49 (addf : (⟨S100000x128, .f32⟩ : BufTy).Contents (Elt F) → (⟨S100000x128, .f32⟩ : BufTy).Contents (Elt F) → (⟨S100000x128, .f32⟩ : BufTy).Contents (Elt F)),
    -- the larger of it and 0
    TRef.nullary main_call1.cst (constant S_ .f32 0x00000000#32),
    TRef.unary main_call1.cst main_call1.v0 (broadcastInDim S100000x128 ![] bcast_S_S100000x128),
    TRef.binary (.of main_v49 : TRef sig ⟨S100000x128, .f32⟩) main_call1.v0 main_call1.v1 maximumf,
    -- plus x
    binary main_v50 main_arg0 main_v51 (addf : (⟨S100000x128, .f32⟩ : BufTy).Contents (Elt F) → (⟨S100000x128, .f32⟩ : BufTy).Contents (Elt F) → (⟨S100000x128, .f32⟩ : BufTy).Contents (Elt F)) ]

-- eighty-nine binds re-associated: the rewrite under the chain recurses once per operation
set_option maxRecDepth 4096 in
set_option maxHeartbeats 2000000 in
/-- @main is that straight line: with the callees' bodies standing at their calls, both sides are one chain of
    steps once the sequencing is re-associated. -/
theorem main_eq (c : Dev nD) : main (F := F) c = seq ops := by
  simp only [main, main_part0, main_part1, fn_std.body, fn_var.body, fn_where.body, fn_relu.body, seq, bind_assoc, pure_bind]

/-- The signature scopes no buffer and has no semaphore: the program is tensor values only. -/
theorem scopedRefs_eq : (Finset.univ.filter fun b : Ref sig .tc => b.isScoped) = ∅ := by decide
theorem scopedSems_eq : (Finset.univ.filter fun sm : SemLoc sig => sm.isScoped .tc) = ∅ := by decide

/-- Every operation touches buffers of the signature only. -/
theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., binary_bufs_sub .., unary_bufs_sub ..,
    unary_bufs_sub .., binary_bufs_sub .., nullary_bufs_sub .., unary_bufs_sub .., nullary_bufs_sub .., unary_bufs_sub ..,
    unary_bufs_sub .., ternary_bufs_sub .., nullary_bufs_sub .., unary_bufs_sub .., unary_bufs_sub .., ternary_bufs_sub ..,
    nullary_bufs_sub .., unary_bufs_sub .., binary_bufs_sub .., unary_bufs_sub .., unary_bufs_sub .., nullary_bufs_sub ..,
    unary_bufs_sub .., binary_bufs_sub .., unary_bufs_sub .., unary_bufs_sub .., unary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., unary_bufs_sub .., binary_bufs_sub .., unary_bufs_sub .., unary_bufs_sub ..,
    binary_bufs_sub .., nullary_bufs_sub .., unary_bufs_sub .., binary_bufs_sub .., binary_bufs_sub ..⟩

/-- Every operation determines what it writes: none allocates a buffer of arbitrary contents. -/
theorem ops_fresh : ∀ op ∈ (ops : List (HloOp τ sig (Elt F))), op.fresh = ∅ :=
  List.forall_iff_forall_mem.mp (by simp only [List.Forall]; repeat' constructor)

/-- On every device, for any float values, from any memory with zero counters: every weakly fair execution of
    @main terminates, and every buffer ends at the fold of the 89 operations over the contents at launch. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ (fun _ => ops_fresh)

/-! ## The arguments are kept

Each operation writes one buffer, its result, and no result is an argument (the arguments are buffers 0 … 6 of the
signature, the results buffers 7 … 95): the fold leaves an argument buffer at its contents at launch. -/

theorem kept_main_arg0 (m : (ℓ : Loc nD τ sig) → Buf (Elt F) ℓ) (c : Dev nD) :
    after ops (launchContents m c) (Proc.devRef .tc main_arg0) = m ((c.tc : Thread nD τ).loc main_arg0) := by
  after_results_simp
theorem kept_main_arg1 (m : (ℓ : Loc nD τ sig) → Buf (Elt F) ℓ) (c : Dev nD) :
    after ops (launchContents m c) (Proc.devRef .tc main_arg1) = m ((c.tc : Thread nD τ).loc main_arg1) := by
  after_results_simp
theorem kept_main_arg2 (m : (ℓ : Loc nD τ sig) → Buf (Elt F) ℓ) (c : Dev nD) :
    after ops (launchContents m c) (Proc.devRef .tc main_arg2) = m ((c.tc : Thread nD τ).loc main_arg2) := by
  after_results_simp
theorem kept_main_arg3 (m : (ℓ : Loc nD τ sig) → Buf (Elt F) ℓ) (c : Dev nD) :
    after ops (launchContents m c) (Proc.devRef .tc main_arg3) = m ((c.tc : Thread nD τ).loc main_arg3) := by
  after_results_simp
theorem kept_main_arg4 (m : (ℓ : Loc nD τ sig) → Buf (Elt F) ℓ) (c : Dev nD) :
    after ops (launchContents m c) (Proc.devRef .tc main_arg4) = m ((c.tc : Thread nD τ).loc main_arg4) := by
  after_results_simp
theorem kept_main_arg5 (m : (ℓ : Loc nD τ sig) → Buf (Elt F) ℓ) (c : Dev nD) :
    after ops (launchContents m c) (Proc.devRef .tc main_arg5) = m ((c.tc : Thread nD τ).loc main_arg5) := by
  after_results_simp
theorem kept_main_arg6 (m : (ℓ : Loc nD τ sig) → Buf (Elt F) ℓ) (c : Dev nD) :
    after ops (launchContents m c) (Proc.devRef .tc main_arg6) = m ((c.tc : Thread nD τ).loc main_arg6) := by
  after_results_simp

end Cert.ReferenceIdeal.RunHand

end
-- ==== Proof.Spec.lean ====
/-
  The row-wise mathematics that both programs compute, on the extended reals.

  For one node (one row `x` of 128 features) the layer first normalises the row: with
  `mean x = (Σ_k x k) / 128` and `std x = sqrt ((Σ_k (x k - mean x)²) / 127)` (the unbiased estimate),
  feature `k` becomes `(a2 k · (x k - mean x)) / (std x + ε) + b2 k`, and is then scaled by the node's
  out-degree factor `s`.  The projected feature `j` is the product of that row with column `j` of the
  weight matrix: `Σ_k feat k · w k j`.  After the messages have been summed over the incoming edges, a
  node's output entry is `max (agg · s' + b) 0 + x` (in-degree factor, bias, rectifier, residual).

  Everything is stated over plain functions `Fin 128 → EReal`, so that a block of 4000 rows and the
  whole array of 100000 rows read the same definition at one of their rows.  The three float constants
  are kept as their binary words: the same word appears on both sides and is never evaluated.
-/
import Idealize.ShloMosaic.PureOps.Ideal

noncomputable section

namespace Cert.Spec

open Idealize.ShloMosaic

/-- The divisor of the mean: the float `128.0`. -/
def c128 : EReal := Ideal.ofBits .f32 0x43000000#32
/-- The divisor of the unbiased variance: the float `127.0`. -/
def c127 : EReal := Ideal.ofBits .f32 0x42FE0000#32
/-- The stabiliser added to the standard deviation: the float nearest `1e-6`. -/
def eps : EReal := Ideal.ofBits .f32 0x358637BD#32

/-- The mean of a row. -/
def mean (x : Fin 128 → EReal) : EReal := Ideal.div (∑ k, x k) c128

/-- A row's entry with the row's mean subtracted. -/
def centered (x : Fin 128 → EReal) (k : Fin 128) : EReal := x k - mean x

/-- The unbiased standard deviation of a row. -/
def std (x : Fin 128 → EReal) : EReal :=
  Ideal.sqrt (Ideal.div (∑ k, centered x k * centered x k) c127)

/-- The normalised, affinely rescaled and degree-scaled feature `k` of a row. -/
def feat (x a2 b2 : Fin 128 → EReal) (s : EReal) (k : Fin 128) : EReal :=
  (Ideal.div (a2 k * centered x k) (std x + eps) + b2 k) * s

/-- The projected feature `j` of a row: the normalised row against column `j` of the weights. -/
def projRow (x a2 b2 : Fin 128 → EReal) (s : EReal) (w : Fin 128 → Fin 128 → EReal) (j : Fin 128) : EReal :=
  ∑ k, feat x a2 b2 s k * w k j

/-- One output entry from the aggregated message `agg`, the in-degree factor `s`, the bias `b` and the
    residual `x`. -/
def combine (agg s b x : EReal) : EReal := max (agg * s + b) 0 + x

end Cert.Spec

end
-- ==== Proof.LibBcastInDim.lean ====
/-
  `stablehlo.broadcast_in_dim` of small shapes, read at an index given by coordinates.

  A vector laid along the second axis of a one-row matrix, a one-row matrix repeated down the rows, a vector laid down
  the first axis of a one-column matrix, and a one-column matrix repeated across the columns: each entry of the result
  is the operand's entry at the coordinates the operand has.
-/
import Idealize.ShloMosaic.Lib.Pipeline.Value
import Idealize.ShloMosaic.Lib.ValueIdx

namespace Cert.BcastInDim

open Idealize.ShloMosaic Idealize.ShloMosaic.ValueIdx

variable {α : Type}

/-- A scalar repeated over any shape: every entry is the scalar. -/
theorem scalar_apply {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 fun ax => ax.elim0

/-- A vector [b] as the one row of a [1, b] matrix: entry (u, q) is the vector's entry q. -/
theorem vec_row_apply {b : ℕ} (x : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A one-row matrix [1, b] repeated down a rows: entry (k, q) is the row's entry q. -/
theorem row_mat_apply {a b : ℕ} (x : (⟨2, ![1, b]⟩ : Shape).Idx → α)
    (h : (⟨2, ![1, b]⟩ : Shape).BroadcastsInDim ⟨2, ![a, b]⟩ (![0, 1] : Fin 2 → Fin 2)) (k : Fin a) (q : Fin b) :
    broadcastInDim ⟨2, ![a, b]⟩ ![0, 1] h x (ix2 k q) = x (ix2 (0 : Fin 1) q) := by
  refine broadcastInDim_apply _ h x (ix2 k q) (ix2 (0 : Fin 1) q) fun ax => ?_
  match ax with
  | ⟨0, _⟩ => rfl
  | ⟨1, _⟩ =>
    show q.val = if b = 1 then 0 else q.val
    split
    · have := q.isLt; omega
    · rfl

/-- A vector [a] as the one column of an [a, 1] matrix: entry (k, u) is the vector's entry k. -/
theorem vec_col_apply {a : ℕ} (x : (⟨1, ![a]⟩ : Shape).Idx → α)
    (h : (⟨1, ![a]⟩ : Shape).BroadcastsInDim ⟨2, ![a, 1]⟩ (![0] : Fin 1 → Fin 2)) (k : Fin a) (u : Fin 1) :
    broadcastInDim ⟨2, ![a, 1]⟩ ![0] h x (ix2 k u) = x (ix1 k) := by
  refine broadcastInDim_apply _ h x (ix2 k u) (ix1 k) fun ax => ?_
  match ax with
  | ⟨0, _⟩ =>
    show k.val = if a = 1 then 0 else k.val
    split
    · have := k.isLt; omega
    · rfl

/-- A one-column matrix [a, 1] repeated across b columns: entry (k, q) is the column's entry k. -/
theorem col_mat_apply {a b : ℕ} (x : (⟨2, ![a, 1]⟩ : Shape).Idx → α)
    (h : (⟨2, ![a, 1]⟩ : Shape).BroadcastsInDim ⟨2, ![a, b]⟩ (![0, 1] : Fin 2 → Fin 2)) (k : Fin a) (q : Fin b) :
    broadcastInDim ⟨2, ![a, b]⟩ ![0, 1] h x (ix2 k q) = x (ix2 k (0 : Fin 1)) := by
  refine broadcastInDim_apply _ h x (ix2 k q) (ix2 k (0 : Fin 1)) fun ax => ?_
  match ax with
  | ⟨0, _⟩ =>
    show k.val = if a = 1 then 0 else k.val
    split
    · have := k.isLt; omega
    · rfl
  | ⟨1, _⟩ => rfl

end Cert.BcastInDim
-- ==== Proof.LibMinReduce.lean ====
/-
  A float vector.multi_reduction <minimumf> over ONE axis, read at the ideal values: the fold of min, from the
  accumulator's value, over that axis's coordinates (the reduced index with the coordinate inserted). The mirror of
  the library's statement for <maximumf>; min on the extended reals commutes and associates, so the order in which
  the reduction visits the axis does not matter. Also the index the coordinate is inserted into, written by
  coordinates, for a matrix reduced along its columns (one value per row) and along its rows (one per column).
-/
import Idealize.ShloMosaic.PureOps.Ideal.Laws
import Idealize.ShloMosaic.PureOps.Reduce
import Idealize.ShloMosaic.Lib.ValueIdx

namespace Cert.MinReduce

open Idealize.ShloMosaic Idealize.ShloMosaic.ValueIdx

/-- A one-axis <minimumf> reduction at the ideal values is the fold of min over the axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- A matrix reduced along its columns: row p with column coordinate c inserted is the entry (p, c). -/
theorem lift_cols {a b : ℕ} (h : (⟨2, ![a, b]⟩ : Shape).Reduces [1] ⟨1, ![a]⟩) (p : Fin a) (c : Fin b) :
    h.lift (ix1 p) c = ix2 p c :=
  funext fun ax => Fin.ext (by match ax with | ⟨0, _⟩ => rfl | ⟨1, _⟩ => rfl)

/-- A matrix reduced along its rows: column c with row coordinate p inserted is the entry (p, c). -/
theorem lift_rows {a b : ℕ} (h : (⟨2, ![a, b]⟩ : Shape).Reduces [0] ⟨1, ![b]⟩) (c : Fin b) (p : Fin a) :
    h.lift (ix1 c) p = ix2 p c :=
  funext fun ax => Fin.ext (by match ax with | ⟨0, _⟩ => rfl | ⟨1, _⟩ => rfl)

end Cert.MinReduce
-- ==== Proof.LibHostSoftmax.lean ====
/-
  The host's softmax over the rows of a matrix, read at an entry.

  For an [a, b] matrix `M` of extended reals scaled by a scalar `s`, the host computes, with the reduced axis kept as a
  unit axis and spread back over the row:
      m(p)   = max(n₁, the maximum over row p of M · s taken from n₀)        (n₀, n₁ scalars; −∞ where this is used)
      e(p,c) = exp(M(p,c) · s − m(p))
      out(p,c) = e(p,c) / (z + ∑ c', e(p,c'))                                (z a scalar; 0 where this is used)
  `rowMax_apply` and `rowSum_apply` read the two one-axis reductions at row p as a fold of max and a sum over the row's
  entries (a maximum commutes and associates, so the order the reduction visits the row in does not matter);
  `keepdims_apply` reads a vector placed as a column [a, 1] and spread to [a, b] at (p, c) as the vector's entry p;
  `scalar_apply` reads a scalar spread to any shape; `softmax_apply` puts them together. All are generic in a and b.
-/
import Idealize.ShloMosaic.PureOps.Ideal.Laws
import Idealize.ShloMosaic.PureOps.Reduce
import Idealize.ShloMosaic.Lib.ValueIdx
import Idealize.ShloMosaic.Lib.Pipeline.Value
import proofs.«146006_j65429531787486_2_alg».proof.Proof.LibMinReduce

noncomputable section

namespace Cert.HostSoftmax

open Idealize.ShloMosaic Idealize.ShloMosaic.ValueIdx

/-- A scalar spread to a shape reads the scalar at every index. -/
theorem scalar_apply {α : Type} {t : Shape} (v : (⟨0, ![]⟩ : Shape).Idx → α) (dims : Fin 0 → Fin t.rank)
    (h : (⟨0, ![]⟩ : Shape).BroadcastsInDim t dims) (j : t.Idx) :
    broadcastInDim t dims h v j = v ix0 :=
  broadcastInDim_apply dims h v j ix0 fun ax => ax.elim0

/-- A vector placed as a column [a, 1] and spread along the unit axis to [a, b] reads, at (p, c), the vector's entry p. -/
theorem keepdims_apply {α : Type} {a b : ℕ} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (c : Fin b) :
    broadcastInDim ⟨2, ![a, b]⟩ ![0, 1] h2 (broadcastInDim ⟨2, ![a, 1]⟩ ![0] h1 v) (ix2 p c) = v (ix1 p) := by
  refine (broadcastInDim_apply ![0, 1] h2 _ (ix2 p c) (ix2 p (0 : Fin 1)) fun ax => ?_).trans
    (broadcastInDim_apply ![0] h1 v (ix2 p (0 : Fin 1)) (ix1 p) fun ax => ?_)
  · match ax with
    | ⟨0, _⟩ =>
      show p.val = if a = 1 then 0 else p.val
      split
      · have := p.isLt; omega
      · rfl
    | ⟨1, _⟩ => show 0 = if (1 : ℕ) = 1 then 0 else c.val; rw [if_pos rfl]
  · match ax with
    | ⟨0, _⟩ =>
      show p.val = if a = 1 then 0 else p.val
      split
      · have := p.isLt; omega
      · rfl

/-- The host's maximum reduction along the rows, read at row p: the fold of max from the initial value over the row. -/
theorem rowMax_apply {a b : ℕ} (x : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduce FloatOps.maximumf x init h' hu (ix1 p)
      = (Finset.univ : Finset (Fin b)).fold max (init (Shape.Idx.first hu)) (fun c => x (ix2 p c)) := by
  rw [Host.reduce_eq_fold_single FloatOps.maximumf x init h' h hu]
  exact congrArg (fun f => Finset.fold max (init (Shape.Idx.first hu)) f (Finset.univ : Finset (Fin b)))
    (funext fun c => congrArg x (Cert.MinReduce.lift_cols h p c))

/-- The host's sum along the rows, read at row p: the initial value plus the sum of the row's entries. -/
theorem rowSum_apply {a b : ℕ} (x : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduceAdd x init h' hu (ix1 p) = init (Shape.Idx.first hu) + ∑ c : Fin b, x (ix2 p c) := by
  simp only [Host.reduceAdd, Ideal.hostReduceAdd_def]
  rw [Ideal.hostReduceAdd_single h' h]
  exact congrArg (_ + ·) (Finset.sum_congr rfl fun c _ => congrArg x (Cert.MinReduce.lift_cols h p c))

/-- The host's softmax of the rows of `M · s`, read at (p, c). -/
theorem softmax_apply {a b : ℕ} (M : FVec Ideal ⟨2, ![a, b]⟩ .f32) (sc n₀ n₁ z : (⟨0, ![]⟩ : Shape).Idx → Ideal .f32)
    (hs : (⟨0, ![]⟩ : Shape).BroadcastsInDim ⟨2, ![a, b]⟩ ![]) (hv : (⟨0, ![]⟩ : Shape).BroadcastsInDim ⟨1, ![a]⟩ ![])
    (h1 : (⟨1, ![a]⟩ : Shape).BroadcastsInDim ⟨2, ![a, 1]⟩ ![0])
    (h2 : (⟨2, ![a, 1]⟩ : Shape).BroadcastsInDim ⟨2, ![a, b]⟩ ![0, 1])
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) (c : Fin b) :
    Host.divf
        (Host.exp (subf (mulf M (broadcastInDim ⟨2, ![a, b]⟩ ![] hs sc))
          (broadcastInDim ⟨2, ![a, b]⟩ ![0, 1] h2 (broadcastInDim ⟨2, ![a, 1]⟩ ![0] h1
            (maximumf (broadcastInDim ⟨1, ![a]⟩ ![] hv n₁)
              (Host.reduce FloatOps.maximumf (mulf M (broadcastInDim ⟨2, ![a, b]⟩ ![] hs sc)) n₀ h' hu))))))
        (broadcastInDim ⟨2, ![a, b]⟩ ![0, 1] h2 (broadcastInDim ⟨2, ![a, 1]⟩ ![0] h1
          (Host.reduceAdd
            (Host.exp (subf (mulf M (broadcastInDim ⟨2, ![a, b]⟩ ![] hs sc))
              (broadcastInDim ⟨2, ![a, b]⟩ ![0, 1] h2 (broadcastInDim ⟨2, ![a, 1]⟩ ![0] h1
                (maximumf (broadcastInDim ⟨1, ![a]⟩ ![] hv n₁)
                  (Host.reduce FloatOps.maximumf (mulf M (broadcastInDim ⟨2, ![a, b]⟩ ![] hs sc)) n₀ h' hu))))))
            z h' hu)))
        (ix2 p c)
      = Ideal.div
          (Ideal.exp (M (ix2 p c) * sc ix0
            - max (n₁ ix0) ((Finset.univ : Finset (Fin b)).fold max (n₀ (Shape.Idx.first hu)) fun c' => M (ix2 p c') * sc ix0)))
          (z (Shape.Idx.first hu) + ∑ c'' : Fin b, Ideal.exp (M (ix2 p c'') * sc ix0
            - max (n₁ ix0) ((Finset.univ : Finset (Fin b)).fold max (n₀ (Shape.Idx.first hu)) fun c' => M (ix2 p c') * sc ix0))) := by
  -- the scaled scores at an entry, the row maximum spread back, the exponentials
  have hX : ∀ c' : Fin b, mulf M (broadcastInDim ⟨2, ![a, b]⟩ ![] hs sc) (ix2 p c') = M (ix2 p c') * sc ix0 := fun c' =>
    congrArg (M (ix2 p c') * ·) (scalar_apply sc ![] hs (ix2 p c'))
  have hK : ∀ c' : Fin b,
      broadcastInDim ⟨2, ![a, b]⟩ ![0, 1] h2 (broadcastInDim ⟨2, ![a, 1]⟩ ![0] h1
        (maximumf (broadcastInDim ⟨1, ![a]⟩ ![] hv n₁)
          (Host.reduce FloatOps.maximumf (mulf M (broadcastInDim ⟨2, ![a, b]⟩ ![] hs sc)) n₀ h' hu))) (ix2 p c')
        = max (n₁ ix0) ((Finset.univ : Finset (Fin b)).fold max (n₀ (Shape.Idx.first hu)) fun c'' => M (ix2 p c'') * sc ix0) := fun c' =>
    (keepdims_apply _ h1 h2 p c').trans (congrArg₂ max (scalar_apply n₁ ![] hv (ix1 p))
      ((rowMax_apply _ n₀ h' h hu p).trans
        (congrArg (fun f => Finset.fold max (n₀ (Shape.Idx.first hu)) f (Finset.univ : Finset (Fin b))) (funext hX))))
  have hE : ∀ c' : Fin b,
      Host.exp (subf (mulf M (broadcastInDim ⟨2, ![a, b]⟩ ![] hs sc))
        (broadcastInDim ⟨2, ![a, b]⟩ ![0, 1] h2 (broadcastInDim ⟨2, ![a, 1]⟩ ![0] h1
          (maximumf (broadcastInDim ⟨1, ![a]⟩ ![] hv n₁)
            (Host.reduce FloatOps.maximumf (mulf M (broadcastInDim ⟨2, ![a, b]⟩ ![] hs sc)) n₀ h' hu))))) (ix2 p c')
        = Ideal.exp (M (ix2 p c') * sc ix0
            - max (n₁ ix0) ((Finset.univ : Finset (Fin b)).fold max (n₀ (Shape.Idx.first hu)) fun c'' => M (ix2 p c'') * sc ix0)) := fun c' =>
    congrArg₂ (fun u v => Ideal.exp (u - v)) (hX c') (hK c')
  exact congrArg₂ Ideal.div (hE c)
    ((keepdims_apply _ h1 h2 p c).trans ((rowSum_apply _ z h' h hu p).trans
      (congrArg (z (Shape.Idx.first hu) + ·) (Finset.sum_congr rfl fun c' _ => hE c'))))

end Cert.HostSoftmax

end
-- ==== Proof.LibSageLayer.lean ====
/-
  One layer of a graph network with mean aggregation, over the extended reals: the pieces its two spellings share.

  The layer's entry (p, q) is  max( x(p,·)·ws(·,q) + bs(q) + nei(p,·)·wn(·,q) + bn(q), 0 ).
  One spelling forms the two products separately and adds the biases one at a time. The other lays x and nei side by
  side along the columns, stacks ws on wn along the rows, forms ONE product over the doubled axis and adds bs + bn.

  * `entry_eq`: the two spellings agree. A sum over an axis of length K + K is the sum over its first K positions plus
    the sum over its last K; the rest is commutativity and associativity of addition, which hold on all extended reals
    (no entry need be finite).
  * `cat_cols_left` / `cat_cols_right`, `cat_rows_left` / `cat_rows_right`: a two-piece concatenation of matrices read at
    an entry of either piece, along the columns and along the rows.
  * `dotGeneral_rows_cols`: a host matrix product [A, K] · [K, B] read at (p, q) is ∑ k, L(p,k) · R(k,q), for any
    dimension record whose index facts are supplied.
-/
import Idealize.ShloMosaic.Lib.ValueIdx
import Idealize.ShloMosaic.Lib.Pipeline.Value
import Idealize.ShloMosaic.PureOps.Ideal.Laws

noncomputable section

namespace Cert.SageLayer

open Idealize.ShloMosaic Idealize.ShloMosaic.ValueIdx

/-- The concatenated spelling of one entry equals the separate one. `cr` is a row of the side-by-side matrix (its
    first K entries the row `xr` of x, its last K the row `nr` of nei), `wq` a column of the stacked weights (first K
    entries the column `wsq` of ws, last K the column `wnq` of wn). -/
theorem entry_eq {K K2 : ℕ} (hK : K2 = K + K) (cr wq : Fin K2 → EReal) (xr nr wsq wnq : Fin K → EReal)
    (hcl : ∀ k : Fin K, cr ⟨k.val, by omega⟩ = xr k) (hcr : ∀ k : Fin K, cr ⟨K + k.val, by omega⟩ = nr k)
    (hwl : ∀ k : Fin K, wq ⟨k.val, by omega⟩ = wsq k) (hwr : ∀ k : Fin K, wq ⟨K + k.val, by omega⟩ = wnq k)
    (bs bn : EReal) :
    max ((∑ k, cr k * wq k) + (bs + bn)) 0
      = max ((((∑ k, xr k * wsq k) + bs) + ∑ k, nr k * wnq k) + bn) 0 := by
  subst hK
  -- the doubled axis splits into its two halves
  rw [Fin.sum_univ_add]
  have h1 : ∀ k : Fin K, cr (Fin.castAdd K k) * wq (Fin.castAdd K k) = xr k * wsq k := fun k => by
    rw [← hcl k, ← hwl k]; rfl
  have h2 : ∀ k : Fin K, cr (Fin.natAdd K k) * wq (Fin.natAdd K k) = nr k * wnq k := fun k => by
    rw [← hcr k, ← hwr k]; rfl
  simp only [h1, h2]
  -- (a + b) + (s + n) = ((a + s) + b) + n
  rw [add_add_add_comm, ← add_assoc]

/-- Row `r` of two [A, K] matrices laid side by side, as a function of the column: the first matrix's row on the first
    K columns, the second's on the next K. -/
def catRow {A K K2 : ℕ} (X NEI : (⟨2, ![A, K]⟩ : Shape).Idx → EReal) (r : Fin A) (k : Fin K2) : EReal :=
  if h : k.val < K then X (ix2 r ⟨k.val, h⟩) else if h2 : k.val - K < K then NEI (ix2 r ⟨k.val - K, h2⟩) else 0

theorem catRow_left {A K K2 : ℕ} (X NEI : (⟨2, ![A, K]⟩ : Shape).Idx → EReal) (r : Fin A) (k : Fin K) (hk : k.val < K2) :
    catRow X NEI r (⟨k.val, hk⟩ : Fin K2) = X (ix2 r k) := by
  unfold catRow; rw [dif_pos k.isLt]

theorem catRow_right {A K K2 : ℕ} (X NEI : (⟨2, ![A, K]⟩ : Shape).Idx → EReal) (r : Fin A) (k : Fin K) (hk : K + k.val < K2) :
    catRow X NEI r (⟨K + k.val, hk⟩ : Fin K2) = NEI (ix2 r k) := by
  unfold catRow
  have h1 : ¬ (K + k.val < K) := by omega
  have h2 : K + k.val - K < K := by have := k.isLt; omega
  rw [dif_neg h1, dif_pos h2]
  exact congrArg (fun z => NEI (ix2 r z)) (Fin.ext (by show K + k.val - K = k.val; omega))

/-- Entry (p, q) of the layer in its concatenated spelling: the side-by-side row p against column q of a [K2, M]
    matrix, plus entry q of a bias vector, and the maximum of that with zero. -/
def denseEntry {A K K2 M : ℕ} (X NEI : (⟨2, ![A, K]⟩ : Shape).Idx → EReal) (W : (⟨2, ![K2, M]⟩ : Shape).Idx → EReal)
    (B : (⟨1, ![M]⟩ : Shape).Idx → EReal) (p : Fin A) (q : Fin M) : EReal :=
  max ((∑ k : Fin K2, catRow X NEI p k * W (ix2 k q)) + B (ix1 q)) 0

/-- The layer in its concatenated spelling, as one function of whole arrays. -/
def dense {A K K2 M : ℕ} (X NEI : (⟨2, ![A, K]⟩ : Shape).Idx → EReal) (W : (⟨2, ![K2, M]⟩ : Shape).Idx → EReal)
    (B : (⟨1, ![M]⟩ : Shape).Idx → EReal) : (⟨2, ![A, M]⟩ : Shape).Idx → EReal :=
  fun i => denseEntry X NEI W B (i 0) (i 1)

/-- An entry depends only on row p of the two feature matrices, column q of the weights and entry q of the bias: two
    settings that agree on those (possibly at different row and column numbers, as a block and the array it is cut
    from do) have the same entry. -/
theorem denseEntry_congr {A A' K K2 M M' : ℕ}
    (X NEI : (⟨2, ![A, K]⟩ : Shape).Idx → EReal) (W : (⟨2, ![K2, M]⟩ : Shape).Idx → EReal) (B : (⟨1, ![M]⟩ : Shape).Idx → EReal)
    (X' NEI' : (⟨2, ![A', K]⟩ : Shape).Idx → EReal) (W' : (⟨2, ![K2, M']⟩ : Shape).Idx → EReal) (B' : (⟨1, ![M']⟩ : Shape).Idx → EReal)
    (p : Fin A) (q : Fin M) (p' : Fin A') (q' : Fin M')
    (hX : ∀ k : Fin K, X (ix2 p k) = X' (ix2 p' k)) (hN : ∀ k : Fin K, NEI (ix2 p k) = NEI' (ix2 p' k))
    (hW : ∀ k : Fin K2, W (ix2 k q) = W' (ix2 k q')) (hB : B (ix1 q) = B' (ix1 q')) :
    denseEntry X NEI W B p q = denseEntry X' NEI' W' B' p' q' := by
  unfold denseEntry
  rw [hB]
  refine congrArg (fun s => max (s + B' (ix1 q')) 0) (Finset.sum_congr rfl fun k _ => ?_)
  rw [hW k]
  refine congrArg (· * W' (ix2 k q')) ?_
  unfold catRow
  split
  · exact hX _
  · split
    · exact hN _
    · rfl

variable {α : Type}

/-- Two [A, K] matrices side by side: a column below K reads the first. -/
theorem cat_cols_left {A K K2 : ℕ} (x₁ x₂ : (⟨2, ![A, K]⟩ : Shape).Idx → α)
    (h : Shape.Concatenates [(⟨2, ![A, K]⟩ : Shape), ⟨2, ![A, K]⟩] ⟨2, ![A, K2]⟩ (1 : Fin 2)) (p : Fin A) (k : Fin K)
    (hk : k.val < K2) :
    concatenate ⟨2, ![A, K2]⟩ (1 : Fin 2) [⟨⟨2, ![A, K]⟩, x₁⟩, ⟨⟨2, ![A, K]⟩, x₂⟩] h (ix2 p ⟨k.val, hk⟩) = x₁ (ix2 p k) :=
  concatenate_pair_apply_left (t := ⟨2, ![A, K2]⟩) (1 : Fin 2) x₁ x₂ h (ix2 p ⟨k.val, hk⟩) rfl (ix2 p k) fun b => by
    match b with
    | ⟨0, _⟩ => rfl
    | ⟨1, _⟩ => rfl

/-- Two [A, K] matrices side by side: column K + k reads the second at column k. -/
theorem cat_cols_right {A K K2 : ℕ} (x₁ x₂ : (⟨2, ![A, K]⟩ : Shape).Idx → α)
    (h : Shape.Concatenates [(⟨2, ![A, K]⟩ : Shape), ⟨2, ![A, K]⟩] ⟨2, ![A, K2]⟩ (1 : Fin 2)) (p : Fin A) (k : Fin K)
    (hk : K + k.val < K2) :
    concatenate ⟨2, ![A, K2]⟩ (1 : Fin 2) [⟨⟨2, ![A, K]⟩, x₁⟩, ⟨⟨2, ![A, K]⟩, x₂⟩] h (ix2 p ⟨K + k.val, hk⟩) = x₂ (ix2 p k) :=
  concatenate_pair_apply_right (t := ⟨2, ![A, K2]⟩) (1 : Fin 2) x₁ x₂ h (ix2 p ⟨K + k.val, hk⟩) rfl rfl (ix2 p k)
    (fun b hb => by
      match b with
      | ⟨0, _⟩ => rfl
      | ⟨1, _⟩ => exact absurd rfl hb)
    (by show k.val + K = K + k.val; omega)

/-- Two [K, M] matrices one above the other: a row below K reads the first. -/
theorem cat_rows_left {K K2 M : ℕ} (x₁ x₂ : (⟨2, ![K, M]⟩ : Shape).Idx → α)
    (h : Shape.Concatenates [(⟨2, ![K, M]⟩ : Shape), ⟨2, ![K, M]⟩] ⟨2, ![K2, M]⟩ (0 : Fin 2)) (k : Fin K) (q : Fin M)
    (hk : k.val < K2) :
    concatenate ⟨2, ![K2, M]⟩ (0 : Fin 2) [⟨⟨2, ![K, M]⟩, x₁⟩, ⟨⟨2, ![K, M]⟩, x₂⟩] h (ix2 ⟨k.val, hk⟩ q) = x₁ (ix2 k q) :=
  concatenate_pair_apply_left (t := ⟨2, ![K2, M]⟩) (0 : Fin 2) x₁ x₂ h (ix2 ⟨k.val, hk⟩ q) rfl (ix2 k q) fun b => by
    match b with
    | ⟨0, _⟩ => rfl
    | ⟨1, _⟩ => rfl

/-- Two [K, M] matrices one above the other: row K + k reads the second at row k. -/
theorem cat_rows_right {K K2 M : ℕ} (x₁ x₂ : (⟨2, ![K, M]⟩ : Shape).Idx → α)
    (h : Shape.Concatenates [(⟨2, ![K, M]⟩ : Shape), ⟨2, ![K, M]⟩] ⟨2, ![K2, M]⟩ (0 : Fin 2)) (k : Fin K) (q : Fin M)
    (hk : K + k.val < K2) :
    concatenate ⟨2, ![K2, M]⟩ (0 : Fin 2) [⟨⟨2, ![K, M]⟩, x₁⟩, ⟨⟨2, ![K, M]⟩, x₂⟩] h (ix2 ⟨K + k.val, hk⟩ q) = x₂ (ix2 k q) :=
  concatenate_pair_apply_right (t := ⟨2, ![K2, M]⟩) (0 : Fin 2) x₁ x₂ h (ix2 ⟨K + k.val, hk⟩ q) rfl rfl (ix2 k q)
    (fun b hb => by
      match b with
      | ⟨0, _⟩ => exact absurd rfl hb
      | ⟨1, _⟩ => rfl)
    (by show k.val + K = K + k.val; omega)

/-- A concatenation of two [A, K] matrices along the columns, read at (p, k), is the side-by-side row. -/
theorem cat_cols_eq_catRow {A K K2 : ℕ} (hK : K2 = K + K) (x₁ x₂ : (⟨2, ![A, K]⟩ : Shape).Idx → EReal)
    (h : Shape.Concatenates [(⟨2, ![A, K]⟩ : Shape), ⟨2, ![A, K]⟩] ⟨2, ![A, K2]⟩ (1 : Fin 2)) (p : Fin A) (k : Fin K2) :
    concatenate ⟨2, ![A, K2]⟩ (1 : Fin 2) [⟨⟨2, ![A, K]⟩, x₁⟩, ⟨⟨2, ![A, K]⟩, x₂⟩] h (ix2 p k) = catRow x₁ x₂ p k := by
  by_cases hk : k.val < K
  · have e : k = ⟨(⟨k.val, hk⟩ : Fin K).val, k.isLt⟩ := rfl
    rw [e, cat_cols_left x₁ x₂ h p ⟨k.val, hk⟩ k.isLt, catRow_left x₁ x₂ p ⟨k.val, hk⟩ k.isLt]
  · have hk2 : k.val - K < K := by have := k.isLt; omega
    have hlt : K + (⟨k.val - K, hk2⟩ : Fin K).val < K2 := by show K + (k.val - K) < K2; have := k.isLt; omega
    have e : k = ⟨K + (⟨k.val - K, hk2⟩ : Fin K).val, hlt⟩ := Fin.ext (by show k.val = K + (k.val - K); omega)
    rw [e, cat_cols_right x₁ x₂ h p ⟨k.val - K, hk2⟩ hlt, catRow_right x₁ x₂ p ⟨k.val - K, hk2⟩ hlt]

/-- A host matrix product read at (p, q): the sum over the contracted axis of the left operand's row p times the
    right operand's column q. -/
theorem dotGeneral_rows_cols {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) (p : Fin A) (q : Fin B) :
    Host.dotGeneral d prec L R (ix2 p q) = ∑ k : Fin K, L (ix2 p k) * R (ix2 k q) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.SageLayer

end
-- ==== Proof.RefValue.lean ====
/-
  The reference program's result as one pure term of its seven arguments, and that term read at an entry.

  Row r of the node features x is normalised: with m = (0 + Σ_k x(r,k)) / 128 and
  v = (0 + Σ_k (x(r,k) − m)²) / (128 − 1), guarded by the test 128 − 1 > 0 (which holds, so the guard's other
  branch is never taken), the feature k becomes (a2(k) · (x(r,k) − m)) / (sqrt v + ε) + b2(k); it is scaled by
  the out-degree factor of node r and multiplied into the weight matrix. The projected rows are gathered along
  the edges' sources, summed into the edges' destinations, scaled by the in-degree factor, biased, clipped at
  zero from below, and the input row is added back.

  `hp_apply` reads the projected features at (r, j) as the row-wise specification `Cert.Spec.projRow` of row r;
  `out_apply` reads the final pointwise stage at (r, j) as `Cert.Spec.combine`.
-/
import proofs.«146006_j65429531787486_2_alg».proof.Proof.Gen.ReferenceIdeal
import proofs.«146006_j65429531787486_2_alg».proof.Proof.Spec
import proofs.«146006_j65429531787486_2_alg».proof.Proof.LibBcastInDim
import proofs.«146006_j65429531787486_2_alg».proof.Proof.LibHostSoftmax
import proofs.«146006_j65429531787486_2_alg».proof.Proof.LibSageLayer
import Idealize.ShloMosaic.Lib.ValueIdx
import Idealize.ShloMosaic.Lib.Pipeline.Value
import Idealize.ShloMosaic.PureOps.Ideal.Laws

noncomputable section

namespace Cert.ReferenceIdeal.RefTerm

open Cert.ReferenceIdeal Cert.ReferenceIdeal.Facts₀ Cert.ReferenceIdeal.Facts
open Idealize.ShloMosaic Idealize.ShloMosaic.ValueIdx

variable [Facts]

/-! ## The composed terms -/

/-- The degree factor of every node, as a column: one over the square root of the number of edges whose
    endpoint (as listed in `idx`) is the node, that number taken at least 1. -/
def normOf (idx : IVec S1600000 32) : FVec Ideal S100000x1 .f32 :=
  broadcastInDim S100000x1 ![0] bcast_S100000_S100000x1_0
    (Host.rsqrt (maximumf
      (Host.scatterAdd scatter_S100000_S1600000x1_S1600000_n_0_0_1
        (broadcastInDim S100000 ![] bcast_S_S100000 (constant (F := Ideal) S_ .f32 0x00000000#32))
        (broadcastInDim S1600000x1 ![0] bcast_S1600000_S1600000x1_0 idx)
        (broadcastInDim S1600000 ![] bcast_S_S1600000 (constant (F := Ideal) S_ .f32 0x3F800000#32)))
      (broadcastInDim S100000 ![] bcast_S_S100000 (constant (F := Ideal) S_ .f32 0x3F800000#32))))

/-- The gather's start indices: a negative source index is wrapped by adding the number of nodes. -/
def gidx (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The messages: rows of `T` gathered at the edges' sources and summed into the edges' destinations. -/
def agg (T : FVec Ideal S100000x128 .f32) (src dst : IVec S1600000 32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 T (gidx src))

/-- The mean of every row, as a column: (0 + the row's sum) / 128. -/
def meanCol (x : FVec Ideal S100000x128 .f32) : FVec Ideal S100000x1 .f32 :=
  Host.divf
    (broadcastInDim S100000x1 ![0] bcast_S100000_S100000x1_0
      (Host.reduceAdd x (constant (F := Ideal) S_ .f32 0x00000000#32) reducesTo_S100000x128_S100000_d1 h_S_))
    (broadcastInDim S100000x1 ![] bcast_S_S100000x1 (constant (F := Ideal) S_ .f32 0x43000000#32))

/-- The divisor of the unbiased variance, as the program forms it: the float 128 minus the integer 1 converted. -/
def ddof : FVec Ideal S_ .f32 :=
  subf (constant (F := Ideal) S_ .f32 0x43000000#32) (sitofp .f32 (constantI S_ 32 1#32))

/-- The unbiased variance of every row, as a column, through the guard "divisor > 0" whose other branch is the
    word 0x7FC00000. -/
def varCol (x : FVec Ideal S100000x128 .f32) : FVec Ideal S100000x1 .f32 :=
  select (broadcastInDim S100000x1 ![] bcast_S_S100000x1 (cmpf .ogt ddof (constant (F := Ideal) S_ .f32 0x00000000#32)))
    (Host.divf
      (broadcastInDim S100000x1 ![0] bcast_S100000_S100000x1_0
        (Host.reduceAdd
          (mulf (subf x (broadcastInDim S100000x128 ![0, 1] bcast_S100000x1_S100000x128_0_1 (meanCol x)))
            (subf x (broadcastInDim S100000x128 ![0, 1] bcast_S100000x1_S100000x128_0_1 (meanCol x))))
          (constant (F := Ideal) S_ .f32 0x00000000#32) reducesTo_S100000x128_S100000_d1 h_S_))
      (broadcastInDim S100000x1 ![] bcast_S_S100000x1 ddof))
    (broadcastInDim S100000x1 ![] bcast_S_S100000x1 (id (constant (F := Ideal) S_ .f32 0x7FC00000#32)))

/-- The normalised and affinely rescaled features: (a2 · (x − mean)) / (sqrt var + ε) + b2. -/
def affine (x : FVec Ideal S100000x128 .f32) (a2 b2 : FVec Ideal S128 .f32) : FVec Ideal S100000x128 .f32 :=
  addf
    (Host.divf
      (mulf
        (broadcastInDim S100000x128 ![0, 1] bcast_S1x128_S100000x128_0_1 (broadcastInDim S1x128 ![1] bcast_S128_S1x128_1 a2))
        (subf x (broadcastInDim S100000x128 ![0, 1] bcast_S100000x1_S100000x128_0_1 (meanCol x))))
      (broadcastInDim S100000x128 ![0, 1] bcast_S100000x1_S100000x128_0_1
        (addf (Host.sqrt (varCol x))
          (broadcastInDim S100000x1 ![] bcast_S_S100000x1 (constant (F := Ideal) S_ .f32 0x358637BD#32)))))
    (broadcastInDim S100000x128 ![0, 1] bcast_S1x128_S100000x128_0_1 (broadcastInDim S1x128 ![1] bcast_S128_S1x128_1 b2))

/-- The projected features: the rescaled features times the out-degree factor, against the weights. -/
def hp (x : FVec Ideal S100000x128 .f32) (src : IVec S1600000 32) (w : FVec Ideal S128x128 .f32)
    (a2 b2 : FVec Ideal S128 .f32) : FVec Ideal S100000x128 .f32 :=
  Host.dotGeneral dot_S100000x128_S128x128_S100000x128_1_0_0_1_n_n none
    (mulf (affine x a2 b2) (broadcastInDim S100000x128 ![0, 1] bcast_S100000x1_S100000x128_0_1 (normOf src))) w

/-- The last pointwise stage: max (A · nin + b, 0) + x. -/
def out (A : FVec Ideal S100000x128 .f32) (nin : FVec Ideal S100000x1 .f32) (b : FVec Ideal S128 .f32)
    (x : FVec Ideal S100000x128 .f32) : FVec Ideal S100000x128 .f32 :=
  addf
    (maximumf
      (addf (mulf A (broadcastInDim S100000x128 ![0, 1] bcast_S100000x1_S100000x128_0_1 nin))
        (broadcastInDim S100000x128 ![0, 1] bcast_S1x128_S100000x128_0_1 (broadcastInDim S1x128 ![1] bcast_S128_S1x128_1 b)))
      (broadcastInDim S100000x128 ![] bcast_S_S100000x128 (constant (F := Ideal) S_ .f32 0x00000000#32)))
    x

/-- The reference's result as a term of its arguments. -/
def result (x : FVec Ideal S100000x128 .f32) (src dst : IVec S1600000 32) (w : FVec Ideal S128x128 .f32)
    (b a2 b2 : FVec Ideal S128 .f32) : FVec Ideal S100000x128 .f32 :=
  out (agg (hp x src w a2 b2) src dst) (normOf dst) b x

/-! ## Two facts about the constants -/

/-- The float 128 less the integer 1 converted is the float 127. -/
theorem ofBits_128_sub_one :
    Ideal.ofBits .f32 0x43000000#32 - (((1#32 : BitVec 32).toInt : ℝ) : EReal) = Ideal.ofBits .f32 0x42FE0000#32 := by
  have h128 : Ideal.ofBits .f32 0x43000000#32 = ((128 : ℝ) : EReal) := by
    simp [Ideal.ofBits, Ideal.ieee, -EReal.coe_mul]; norm_num
  have h127 : Ideal.ofBits .f32 0x42FE0000#32 = ((127 : ℝ) : EReal) := by
    simp [Ideal.ofBits, Ideal.ieee, -EReal.coe_mul]; norm_num
  have h1 : ((1#32 : BitVec 32).toInt : ℝ) = 1 := by norm_num [BitVec.toInt]
  rw [h128, h127, h1, ← EReal.coe_sub]
  norm_num

/-- The float 127 is above zero, so the comparison "greater than the zero word" answers 1. -/
theorem cmp_127_pos :
    Ideal.cmp .ogt (Ideal.ofBits .f32 0x42FE0000#32) (Ideal.ofBits .f32 0x00000000#32) = 1#1 := by
  have h127 : Ideal.ofBits .f32 0x42FE0000#32 = ((127 : ℝ) : EReal) := by
    simp [Ideal.ofBits, Ideal.ieee, -EReal.coe_mul]; norm_num
  rw [h127, Ideal.ofBits_zero_f32]
  have : (0 : EReal) < ((127 : ℝ) : EReal) := by exact_mod_cast (by norm_num : (0 : ℝ) < 127)
  simp [Ideal.cmp, this]

/-! ## The host's pointwise division and square root at an index -/

theorem hostDivf_apply {s : Shape} {φ : FTy} (a b : FVec Ideal s φ) (i : s.Idx) :
    Host.divf a b i = Ideal.div (a i) (b i) := rfl

theorem hostSqrt_apply {s : Shape} {φ : FTy} (a : FVec Ideal s φ) (i : s.Idx) :
    Host.sqrt a i = Ideal.sqrt (a i) := rfl

/-! ## The row statistics at an entry -/

/-- Removing the column axis of the feature matrix leaves the vector of rows, also in the sense that asks for at
    least one axis to remain. -/
theorem reduces_rows : S100000x128.Reduces [1] S100000 := by decide

/-- The mean column at row r is the mean of row r. -/
theorem mean_apply (x : FVec Ideal S100000x128 .f32) (r : Fin 100000) (u : Fin 1) :
    meanCol x (ix2 r u) = Cert.Spec.mean (fun k => x (ix2 r k)) := by
  unfold meanCol Cert.Spec.mean Cert.Spec.c128
  refine (hostDivf_apply _ _ _).trans (congrArg₂ Ideal.div ?_ ?_)
  · refine (Cert.BcastInDim.vec_col_apply _ bcast_S100000_S100000x1_0 r u).trans ?_
    refine (Cert.HostSoftmax.rowSum_apply x _ reducesTo_S100000x128_S100000_d1 reduces_rows h_S_ r).trans ?_
    rw [constant_apply, Ideal.ofBits_zero_f32, zero_add]
  · exact Cert.BcastInDim.scalar_apply _ bcast_S_S100000x1 (ix2 r u)

/-- An entry of x less its row's mean spread over the row. -/
theorem centered_apply (x : FVec Ideal S100000x128 .f32) (r : Fin 100000) (k : Fin 128) :
    subf x (broadcastInDim S100000x128 ![0, 1] bcast_S100000x1_S100000x128_0_1 (meanCol x)) (ix2 r k)
      = Cert.Spec.centered (fun k => x (ix2 r k)) k := by
  unfold Cert.Spec.centered
  exact (subf_apply _ _ _).trans (congrArg (x (ix2 r k) - ·)
    ((Cert.BcastInDim.col_mat_apply _ bcast_S100000x1_S100000x128_0_1 r k).trans (mean_apply x r 0)))

/-- The variance's divisor is the float 127. -/
theorem ddof_apply (i : S_.Idx) : ddof i = Cert.Spec.c127 := ofBits_128_sub_one

/-- The variance column at row r: the guard holds, so it is the sum of the squared centred entries of row r over 127. -/
theorem var_apply (x : FVec Ideal S100000x128 .f32) (r : Fin 100000) (u : Fin 1) :
    varCol x (ix2 r u)
      = Ideal.div (∑ k, Cert.Spec.centered (fun k => x (ix2 r k)) k * Cert.Spec.centered (fun k => x (ix2 r k)) k)
          Cert.Spec.c127 := by
  unfold varCol
  refine (select_apply _ _ _ _).trans ?_
  have hc : broadcastInDim S100000x1 ![] bcast_S_S100000x1
      (cmpf .ogt ddof (constant (F := Ideal) S_ .f32 0x00000000#32)) (ix2 r u) = 1#1 := by
    refine (Cert.BcastInDim.scalar_apply _ bcast_S_S100000x1 (ix2 r u)).trans ?_
    show Ideal.cmp .ogt (ddof ix0) (Ideal.ofBits .f32 0x00000000#32) = 1#1
    rw [ddof_apply]
    exact cmp_127_pos
  rw [hc, select_one]
  refine (hostDivf_apply _ _ _).trans (congrArg₂ Ideal.div ?_ ?_)
  · refine (Cert.BcastInDim.vec_col_apply _ bcast_S100000_S100000x1_0 r u).trans ?_
    refine (Cert.HostSoftmax.rowSum_apply _ _ reducesTo_S100000x128_S100000_d1 reduces_rows h_S_ r).trans ?_
    rw [constant_apply, Ideal.ofBits_zero_f32, zero_add]
    exact Finset.sum_congr rfl fun k _ => congrArg₂ (· * ·) (centered_apply x r k) (centered_apply x r k)
  · exact (Cert.BcastInDim.scalar_apply _ bcast_S_S100000x1 (ix2 r u)).trans (ddof_apply _)

/-- The rescaled feature (r, k) before the degree factor. -/
theorem affine_apply (x : FVec Ideal S100000x128 .f32) (a2 b2 : FVec Ideal S128 .f32) (r : Fin 100000) (k : Fin 128) :
    affine x a2 b2 (ix2 r k)
      = Ideal.div (a2 (ix1 k) * Cert.Spec.centered (fun k => x (ix2 r k)) k)
          (Cert.Spec.std (fun k => x (ix2 r k)) + Cert.Spec.eps) + b2 (ix1 k) := by
  unfold affine Cert.Spec.std Cert.Spec.eps
  refine (addf_apply _ _ _).trans (congrArg₂ (· + ·) ?_ ?_)
  · refine (hostDivf_apply _ _ _).trans (congrArg₂ Ideal.div ?_ ?_)
    · refine (mulf_apply _ _ _).trans (congrArg₂ (· * ·) ?_ (centered_apply x r k))
      exact (Cert.BcastInDim.row_mat_apply _ bcast_S1x128_S100000x128_0_1 r k).trans
        (Cert.BcastInDim.vec_row_apply a2 bcast_S128_S1x128_1 0 k)
    · refine (Cert.BcastInDim.col_mat_apply _ bcast_S100000x1_S100000x128_0_1 r k).trans ?_
      refine (addf_apply _ _ _).trans (congrArg₂ (· + ·) ?_ ?_)
      · exact (hostSqrt_apply _ _).trans (congrArg Ideal.sqrt (var_apply x r 0))
      · exact Cert.BcastInDim.scalar_apply _ bcast_S_S100000x1 (ix2 r (0 : Fin 1))
  · exact (Cert.BcastInDim.row_mat_apply _ bcast_S1x128_S100000x128_0_1 r k).trans
      (Cert.BcastInDim.vec_row_apply b2 bcast_S128_S1x128_1 0 k)

/-- The feature (r, k) that enters the product with the weights. -/
theorem feat_apply (x : FVec Ideal S100000x128 .f32) (src : IVec S1600000 32) (a2 b2 : FVec Ideal S128 .f32)
    (r : Fin 100000) (k : Fin 128) :
    mulf (affine x a2 b2) (broadcastInDim S100000x128 ![0, 1] bcast_S100000x1_S100000x128_0_1 (normOf src)) (ix2 r k)
      = Cert.Spec.feat (fun k => x (ix2 r k)) (fun k => a2 (ix1 k)) (fun k => b2 (ix1 k))
          (normOf src (ix2 r (0 : Fin 1))) k := by
  unfold Cert.Spec.feat
  exact (mulf_apply _ _ _).trans (congrArg₂ (· * ·) (affine_apply x a2 b2 r k)
    (Cert.BcastInDim.col_mat_apply _ bcast_S100000x1_S100000x128_0_1 r k))

/-! ## The terms at an entry -/

/-- The projected features at (r, j): row r's specification against column j of the weights. -/
theorem hp_apply (x : FVec Ideal S100000x128 .f32) (src : IVec S1600000 32) (w : FVec Ideal S128x128 .f32)
    (a2 b2 : FVec Ideal S128 .f32) (r : Fin 100000) (j : Fin 128) :
    hp x src w a2 b2 (ix2 r j)
      = Cert.Spec.projRow (fun k => x (ix2 r k)) (fun k => a2 (ix1 k)) (fun k => b2 (ix1 k))
          (normOf src (ix2 r (0 : Fin 1))) (fun k j' => w (ix2 k j')) j := by
  unfold hp Cert.Spec.projRow
  refine (Cert.SageLayer.dotGeneral_rows_cols dot_S100000x128_S128x128_S100000x128_1_0_0_1_n_n rfl rfl
    (fun _ _ => rfl) (fun i c => DotDims.lhsIdx_val_of_single _ rfl i c)
    (fun i c => DotDims.rhsIdx_val_of_single _ rfl i c) (fun _ _ => rfl) none _ w r j).trans ?_
  exact Finset.sum_congr rfl fun k _ => congrArg (· * w (ix2 k j)) (feat_apply x src a2 b2 r k)

/-- The last stage at (r, j): the aggregated message scaled by the row's in-degree factor, plus the bias of
    column j, clipped at zero from below, plus the input entry. -/
theorem out_apply (A : FVec Ideal S100000x128 .f32) (nin : FVec Ideal S100000x1 .f32) (b : FVec Ideal S128 .f32)
    (x : FVec Ideal S100000x128 .f32) (r : Fin 100000) (j : Fin 128) :
    out A nin b x (ix2 r j) = Cert.Spec.combine (A (ix2 r j)) (nin (ix2 r (0 : Fin 1))) (b (ix1 j)) (x (ix2 r j)) := by
  unfold out Cert.Spec.combine
  refine (addf_apply _ _ _).trans (congrArg (· + x (ix2 r j)) ?_)
  refine (maximumf_apply _ _ _).trans (congrArg₂ max ?_ ?_)
  · refine (addf_apply _ _ _).trans (congrArg₂ (· + ·) ?_ ?_)
    · exact (mulf_apply _ _ _).trans (congrArg (A (ix2 r j) * ·)
        (Cert.BcastInDim.col_mat_apply nin bcast_S100000x1_S100000x128_0_1 r j))
    · exact (Cert.BcastInDim.row_mat_apply _ bcast_S1x128_S100000x128_0_1 r j).trans
        (Cert.BcastInDim.vec_row_apply b bcast_S128_S1x128_1 0 j)
  · exact (Cert.BcastInDim.scalar_apply _ bcast_S_S100000x128 (ix2 r j)).trans
      ((constant_apply _ _).trans Ideal.ofBits_zero_f32)

end Cert.ReferenceIdeal.RefTerm

end
-- ==== Proof.RefResult.lean ====
/-
  The reference's run ends with its result buffer at the composed term.

  The program is a straight line of 89 host operations, each writing one buffer from buffers written before it, so
  the result buffer after the run is the operations' functions composed along that dependency; spelt out, it is the
  term `result` of the seven arguments' contents at launch.

  The run's operation list names a called function's value buffers through the call's record, as typed references;
  an operation over typed references is the operation over the buffers they carry, with its function moved along the
  equation "this buffer's type is the value's type". For a literal buffer that equation holds by computation and the
  move is the identity. `opsPlain` is the same list written over the buffers directly (`ops_eq`), and it is from that
  spelling that the composed term is read.
-/
import proofs.«146006_j65429531787486_2_alg».proof.Proof.RefValue
import proofs.«146006_j65429531787486_2_alg».proof.Proof.RefRun

noncomputable section

namespace Cert.ReferenceIdeal.RefTerm

open Cert.ReferenceIdeal Cert.ReferenceIdeal.Facts₀ Cert.ReferenceIdeal.Facts
open Idealize.ShloMosaic Idealize.ShloMosaic.ValueIdx Idealize.ShloMosaic.TcCoe Idealize.SL.Sem Idealize.ShloMosaic.StableHlo

variable [Facts]

section Plain
variable {F : FTy → Type} [FloatOps F]

/-- The 89 operations in program order, every buffer named directly: the row mean; inside the standard deviation the
    mean again, the squared deviations, their row sum over 128 − 1 behind the test 128 − 1 > 0, the square root; the
    normalised and rescaled row; the two degree factors; the scaled row against the weights; the gather along the
    sources and the sum into the destinations; the in-degree factor, the bias, the maximum with 0, plus x. -/
abbrev opsPlain : List (HloOp τ sig (Elt F)) :=
  [
    nullary main_cst (constant S_ .f32 0x00000000#32),
    binary main_arg0 main_cst main_v0 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v0 main_v1 (broadcastInDim S100000x1 ![0] bcast_S100000_S100000x1_0 : (⟨S100000, .f32⟩ : BufTy).Contents (Elt F) → (⟨S100000x1, .f32⟩ : BufTy).Contents (Elt F)),
    nullary main_cst_0 (constant S_ .f32 0x43000000#32),
    unary main_cst_0 main_v2 (broadcastInDim S100000x1 ![] bcast_S_S100000x1 : (⟨S_, .f32⟩ : BufTy).Contents (Elt F) → (⟨S100000x1, .f32⟩ : BufTy).Contents (Elt F)),
    binary main_v1 main_v2 main_v3 (Host.divf : (⟨S100000x1, .f32⟩ : BufTy).Contents (Elt F) → (⟨S100000x1, .f32⟩ : BufTy).Contents (Elt F) → (⟨S100000x1, .f32⟩ : BufTy).Contents (Elt F)),
    nullary main_c (constantI S_ 32 1#32),
    nullary main_call0_call0_cst (constant S_ .f32 0x00000000#32),
    binary main_arg0 main_call0_call0_cst main_call0_call0_v0 (fun x v => Host.reduceAdd x v reducesTo_S100000x128_S100000_d1 h_S_),
    unary main_call0_call0_v0 main_call0_call0_v1 (broadcastInDim S100000x1 ![0] bcast_S100000_S100000x1_0),
    nullary main_call0_call0_cst_0 (constant S_ .f32 0x43000000#32),
    unary main_call0_call0_cst_0 main_call0_call0_v2 (broadcastInDim S100000x1 ![] bcast_S_S100000x1),
    binary main_call0_call0_v1 main_call0_call0_v2 main_call0_call0_v3 Host.divf,
    unary main_call0_call0_v3 main_call0_call0_v4 (broadcastInDim S100000x128 ![0, 1] bcast_S100000x1_S100000x128_0_1),
    binary main_arg0 main_call0_call0_v4 main_call0_call0_v5 subf,
    binary main_call0_call0_v5 main_call0_call0_v5 main_call0_call0_v6 mulf,
    unary main_c main_call0_call0_v7 (sitofp .f32),
    nullary main_call0_call0_cst_1 (constant S_ .f32 0x43000000#32),
    binary main_call0_call0_cst_1 main_call0_call0_v7 main_call0_call0_v8 subf,
    nullary main_call0_call0_cst_2 (constant S_ .f32 0x00000000#32),
    binary main_call0_call0_v6 main_call0_call0_cst_2 main_call0_call0_v9 (fun x v => Host.reduceAdd x v reducesTo_S100000x128_S100000_d1 h_S_),
    unary main_call0_call0_v9 main_call0_call0_v10 (broadcastInDim S100000x1 ![0] bcast_S100000_S100000x1_0),
    unary main_call0_call0_v8 main_call0_call0_v11 (broadcastInDim S100000x1 ![] bcast_S_S100000x1),
    binary main_call0_call0_v10 main_call0_call0_v11 main_call0_call0_v12 Host.divf,
    nullary main_call0_call0_cst_3 (constant S_ .f32 0x00000000#32),
    binary main_call0_call0_v8 main_call0_call0_cst_3 main_call0_call0_v13 (cmpf .ogt),
    nullary main_call0_call0_cst_4 (constant S_ .f32 0x7FC00000#32),
    unary main_call0_call0_cst_4 main_call0_call0_call0_v0 id,
    unary main_call0_call0_call0_v0 main_call0_call0_call0_v1 (broadcastInDim S100000x1 ![] bcast_S_S100000x1),
    ternary main_call0_call0_v13 main_call0_call0_v12 main_call0_call0_call0_v1 main_call0_v0 (fun p a b => select (broadcastInDim S100000x1 ![] bcast_S_S100000x1 p) a b),
    unary main_call0_v0 main_v4 Host.sqrt,
    unary main_v3 main_v5 (broadcastInDim S100000x128 ![0, 1] bcast_S100000x1_S100000x128_0_1 : (⟨S100000x1, .f32⟩ : BufTy).Contents (Elt F) → (⟨S100000x128, .f32⟩ : BufTy).Contents (Elt F)),
    binary main_arg0 main_v5 main_v6 (subf : (⟨S100000x128, .f32⟩ : BufTy).Contents (Elt F) → (⟨S100000x128, .f32⟩ : BufTy).Contents (Elt F) → (⟨S100000x128, .f32⟩ : BufTy).Contents (Elt F)),
    unary main_arg5 main_v7 (broadcastInDim S1x128 ![1] bcast_S128_S1x128_1 : (⟨S128, .f32⟩ : BufTy).Contents (Elt F) → (⟨S1x128, .f32⟩ : BufTy).Contents (Elt F)),
    unary main_v7 main_v8 (broadcastInDim S100000x128 ![0, 1] bcast_S1x128_S100000x128_0_1 : (⟨S1x128, .f32⟩ : BufTy).Contents (Elt F) → (⟨S100000x128, .f32⟩ : BufTy).Contents (Elt F)),
    binary main_v8 main_v6 main_v9 (mulf : (⟨S100000x128, .f32⟩ : BufTy).Contents (Elt F) → (⟨S100000x128, .f32⟩ : BufTy).Contents (Elt F) → (⟨S100000x128, .f32⟩ : BufTy).Contents (Elt F)),
    nullary main_cst_1 (constant S_ .f32 0x358637BD#32),
    unary main_cst_1 main_v10 (broadcastInDim S100000x1 ![] bcast_S_S100000x1 : (⟨S_, .f32⟩ : BufTy).Contents (Elt F) → (⟨S100000x1, .f32⟩ : BufTy).Contents (Elt F)),
    binary main_v4 main_v10 main_v11 (addf : (⟨S100000x1, .f32⟩ : BufTy).Contents (Elt F) → (⟨S100000x1, .f32⟩ : BufTy).Contents (Elt F) → (⟨S100000x1, .f32⟩ : BufTy).Contents (Elt F)),
    unary main_v11 main_v12 (broadcastInDim S100000x128 ![0, 1] bcast_S100000x1_S100000x128_0_1 : (⟨S100000x1, .f32⟩ : BufTy).Contents (Elt F) → (⟨S100000x128, .f32⟩ : BufTy).Contents (Elt F)),
    binary main_v9 main_v12 main_v13 (Host.divf : (⟨S100000x128, .f32⟩ : BufTy).Contents (Elt F) → (⟨S100000x128, .f32⟩ : BufTy).Contents (Elt F) → (⟨S100000x128, .f32⟩ : BufTy).Contents (Elt F)),
    unary main_arg6 main_v14 (broadcastInDim S1x128 ![1] bcast_S128_S1x128_1 : (⟨S128, .f32⟩ : BufTy).Contents (Elt F) → (⟨S1x128, .f32⟩ : BufTy).Contents (Elt F)),
    unary main_v14 main_v15 (broadcastInDim S100000x128 ![0, 1] bcast_S1x128_S100000x128_0_1 : (⟨S1x128, .f32⟩ : BufTy).Contents (Elt F) → (⟨S100000x128, .f32⟩ : BufTy).Contents (Elt F)),
    binary main_v13 main_v15 main_v16 (addf : (⟨S100000x128, .f32⟩ : BufTy).Contents (Elt F) → (⟨S100000x128, .f32⟩ : BufTy).Contents (Elt F) → (⟨S100000x128, .f32⟩ : BufTy).Contents (Elt F)),
    nullary main_cst_2 (constant S_ .f32 0x3F800000#32),
    unary main_cst_2 main_v17 (broadcastInDim S1600000 ![] bcast_S_S1600000 : (⟨S_, .f32⟩ : BufTy).Contents (Elt F) → (⟨S1600000, .f32⟩ : BufTy).Contents (Elt F)),
    nullary main_cst_3 (constant S_ .f32 0x00000000#32),
    unary main_cst_3 main_v18 (broadcastInDim S100000 ![] bcast_S_S100000 : (⟨S_, .f32⟩ : BufTy).Contents (Elt F) → (⟨S100000, .f32⟩ : BufTy).Contents (Elt F)),
    unary main_arg1 main_v19 (broadcastInDim S1600000x1 ![0] bcast_S1600000_S1600000x1_0 : (⟨S1600000, .i32⟩ : BufTy).Contents (Elt F) → (⟨S1600000x1, .i32⟩ : BufTy).Contents (Elt F)),
    ternary main_v18 main_v19 main_v17 main_v20 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_4 (constant S_ .f32 0x00000000#32),
    unary main_cst_4 main_v21 (broadcastInDim S100000 ![] bcast_S_S100000 : (⟨S_, .f32⟩ : BufTy).Contents (Elt F) → (⟨S100000, .f32⟩ : BufTy).Contents (Elt F)),
    unary main_arg2 main_v22 (broadcastInDim S1600000x1 ![0] bcast_S1600000_S1600000x1_0 : (⟨S1600000, .i32⟩ : BufTy).Contents (Elt F) → (⟨S1600000x1, .i32⟩ : BufTy).Contents (Elt F)),
    ternary main_v21 main_v22 main_v17 main_v23 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_5 (constant S_ .f32 0x3F800000#32),
    unary main_cst_5 main_v24 (broadcastInDim S100000 ![] bcast_S_S100000 : (⟨S_, .f32⟩ : BufTy).Contents (Elt F) → (⟨S100000, .f32⟩ : BufTy).Contents (Elt F)),
    binary main_v20 main_v24 main_v25 (maximumf : (⟨S100000, .f32⟩ : BufTy).Contents (Elt F) → (⟨S100000, .f32⟩ : BufTy).Contents (Elt F) → (⟨S100000, .f32⟩ : BufTy).Contents (Elt F)),
    unary main_v25 main_v26 (Host.rsqrt : (⟨S100000, .f32⟩ : BufTy).Contents (Elt F) → (⟨S100000, .f32⟩ : BufTy).Contents (Elt F)),
    unary main_v26 main_v27 (broadcastInDim S100000x1 ![0] bcast_S100000_S100000x1_0 : (⟨S100000, .f32⟩ : BufTy).Contents (Elt F) → (⟨S100000x1, .f32⟩ : BufTy).Contents (Elt F)),
    nullary main_cst_6 (constant S_ .f32 0x3F800000#32),
    unary main_cst_6 main_v28 (broadcastInDim S100000 ![] bcast_S_S100000 : (⟨S_, .f32⟩ : BufTy).Contents (Elt F) → (⟨S100000, .f32⟩ : BufTy).Contents (Elt F)),
    binary main_v23 main_v28 main_v29 (maximumf : (⟨S100000, .f32⟩ : BufTy).Contents (Elt F) → (⟨S100000, .f32⟩ : BufTy).Contents (Elt F) → (⟨S100000, .f32⟩ : BufTy).Contents (Elt F)),
    unary main_v29 main_v30 (Host.rsqrt : (⟨S100000, .f32⟩ : BufTy).Contents (Elt F) → (⟨S100000, .f32⟩ : BufTy).Contents (Elt F)),
    unary main_v30 main_v31 (broadcastInDim S100000x1 ![0] bcast_S100000_S100000x1_0 : (⟨S100000, .f32⟩ : BufTy).Contents (Elt F) → (⟨S100000x1, .f32⟩ : BufTy).Contents (Elt F)),
    unary main_v27 main_v32 (broadcastInDim S100000x128 ![0, 1] bcast_S100000x1_S100000x128_0_1 : (⟨S100000x1, .f32⟩ : BufTy).Contents (Elt F) → (⟨S100000x128, .f32⟩ : BufTy).Contents (Elt F)),
    binary main_v16 main_v32 main_v33 (mulf : (⟨S100000x128, .f32⟩ : BufTy).Contents (Elt F) → (⟨S100000x128, .f32⟩ : BufTy).Contents (Elt F) → (⟨S100000x128, .f32⟩ : BufTy).Contents (Elt F)),
    binary main_v33 main_arg3 main_v34 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_7 (constantI S_ 32 0#32),
    unary main_c_7 main_v35 (broadcastInDim S1600000 ![] bcast_S_S1600000 : (⟨S_, .i32⟩ : BufTy).Contents (Elt F) → (⟨S1600000, .i32⟩ : BufTy).Contents (Elt F)),
    binary main_arg1 main_v35 main_v36 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 100000#32),
    unary main_c_8 main_v37 (broadcastInDim S1600000 ![] bcast_S_S1600000 : (⟨S_, .i32⟩ : BufTy).Contents (Elt F) → (⟨S1600000, .i32⟩ : BufTy).Contents (Elt F)),
    binary main_arg1 main_v37 main_v38 (addi : (⟨S1600000, .i32⟩ : BufTy).Contents (Elt F) → (⟨S1600000, .i32⟩ : BufTy).Contents (Elt F) → (⟨S1600000, .i32⟩ : BufTy).Contents (Elt F)),
    ternary main_v36 main_v38 main_arg1 main_v39 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v39 main_v40 (broadcastInDim S1600000x1 ![0] bcast_S1600000_S1600000x1_0 : (⟨S1600000, .i32⟩ : BufTy).Contents (Elt F) → (⟨S1600000x1, .i32⟩ : BufTy).Contents (Elt F)),
    binary main_v34 main_v40 main_v41 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_9 (constant S_ .f32 0x00000000#32),
    unary main_cst_9 main_v42 (broadcastInDim S100000x128 ![] bcast_S_S100000x128 : (⟨S_, .f32⟩ : BufTy).Contents (Elt F) → (⟨S100000x128, .f32⟩ : BufTy).Contents (Elt F)),
    unary main_arg2 main_v43 (broadcastInDim S1600000x1 ![0] bcast_S1600000_S1600000x1_0 : (⟨S1600000, .i32⟩ : BufTy).Contents (Elt F) → (⟨S1600000x1, .i32⟩ : BufTy).Contents (Elt F)),
    ternary main_v42 main_v43 main_v41 main_v44 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v31 main_v45 (broadcastInDim S100000x128 ![0, 1] bcast_S100000x1_S100000x128_0_1 : (⟨S100000x1, .f32⟩ : BufTy).Contents (Elt F) → (⟨S100000x128, .f32⟩ : BufTy).Contents (Elt F)),
    binary main_v44 main_v45 main_v46 (mulf : (⟨S100000x128, .f32⟩ : BufTy).Contents (Elt F) → (⟨S100000x128, .f32⟩ : BufTy).Contents (Elt F) → (⟨S100000x128, .f32⟩ : BufTy).Contents (Elt F)),
    unary main_arg4 main_v47 (broadcastInDim S1x128 ![1] bcast_S128_S1x128_1 : (⟨S128, .f32⟩ : BufTy).Contents (Elt F) → (⟨S1x128, .f32⟩ : BufTy).Contents (Elt F)),
    unary main_v47 main_v48 (broadcastInDim S100000x128 ![0, 1] bcast_S1x128_S100000x128_0_1 : (⟨S1x128, .f32⟩ : BufTy).Contents (Elt F) → (⟨S100000x128, .f32⟩ : BufTy).Contents (Elt F)),
    binary main_v46 main_v48 main_v49 (addf : (⟨S100000x128, .f32⟩ : BufTy).Contents (Elt F) → (⟨S100000x128, .f32⟩ : BufTy).Contents (Elt F) → (⟨S100000x128, .f32⟩ : BufTy).Contents (Elt F)),
    nullary main_call1_cst (constant S_ .f32 0x00000000#32),
    unary main_call1_cst main_call1_v0 (broadcastInDim S100000x128 ![] bcast_S_S100000x128),
    binary main_v49 main_call1_v0 main_v50 maximumf,
    binary main_v50 main_arg0 main_v51 (addf : (⟨S100000x128, .f32⟩ : BufTy).Contents (Elt F) → (⟨S100000x128, .f32⟩ : BufTy).Contents (Elt F) → (⟨S100000x128, .f32⟩ : BufTy).Contents (Elt F)) ]

/-- The run's list is this list. -/
theorem ops_eq : (RunHand.ops : List (HloOp τ sig (Elt F))) = opsPlain := rfl

end Plain

set_option maxHeartbeats 1000000 in
/-- The last buffer after all the operations, over the contents at launch, is the composed term of the arguments. -/
theorem result_eq (m : (ℓ : Loc nD τ sig) → Buf (Elt Ideal) ℓ) (c : Dev nD) :
    StableHlo.after (RunHand.ops (F := Ideal)) (StableHlo.launchContents m c) (Proc.devRef .tc main_v51)
      = result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  rw [ops_eq]
  after_results_simp
  rfl

end Cert.ReferenceIdeal.RefTerm

end
-- ==== Proof.LibKeepdims.lean ====
/-
  Two layout operations read at an index given by coordinates, for a reduction that keeps its reduced axis as a
  unit axis: a vector of `a` entries cast to a column `[a, 1]`, and a column `[a, 1]` broadcast along its unit
  axis to `[a, b]`. Both are instances of the library's general lemmas (a shape cast reads the operand at the index
  with the same row-major position; a broadcast reads the operand at the trailing coordinates, `0` on unit axes)
  with the coordinates' arithmetic discharged.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to a column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibRowReduce.lean ====
/-
  A matrix reduced along its columns (one value per row), and a per-row value spread back over the row.

  For an [a, b] matrix `src` of extended reals:
  * `rowMax_apply`: a one-axis maximum reduction over axis 1, read at row p, is the fold of max from the accumulator's
    value over the entries src(p, c) of that row;
  * `rowSum_apply`: a one-axis add reduction over axis 1 from the neutral accumulator, read at row p, is ∑ c, src(p, c);
  * `keepdims_apply`: a vector of `a` entries cast to a column [a, 1] and broadcast to [a, b] reads, at (p, c), the
    vector's entry p — the reduced axis kept as a unit axis and spread back over the row.
-/
import Idealize.ShloMosaic.PureOps.Ideal.Laws
import Idealize.ShloMosaic.PureOps.Reduce
import Idealize.ShloMosaic.Lib.ValueIdx
import Idealize.ShloMosaic.Lib.Pipeline.Value
import proofs.«146006_j65429531787486_2_alg».proof.Proof.LibKeepdims
import proofs.«146006_j65429531787486_2_alg».proof.Proof.LibMinReduce

noncomputable section

namespace Cert.RowReduce

open Idealize.ShloMosaic Idealize.ShloMosaic.ValueIdx

/-- The maximum of row p: the fold of max, from the accumulator's value, over the row's entries. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun c => src (ix2 p c)) := by
  refine (Ideal.multiReduction_maximumf_single src acc h hφ hacc (ix1 p)).trans ?_
  refine congrArg (fun f => (Finset.univ : Finset (Fin b)).fold max (Ideal.ofBits φ acc) f) ?_
  funext c
  exact congrArg src (Cert.MinReduce.lift_cols h p c)

/-- The sum of row p: the sum of the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ c : Fin b, src (ix2 p c) := by
  refine (Ideal.multiReduction_add_single src acc h hφ hacc (ix1 p)).trans ?_
  exact Finset.sum_congr rfl fun c _ => congrArg src (Cert.MinReduce.lift_cols h p c)

/-- A vector cast to a column and broadcast along the unit axis reads, at (p, c), the vector's entry p. -/
theorem keepdims_apply {α : Type} {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ v hc) hb (ix2 p c) = v (ix1 p) :=
  (Cert.Keepdims.broadcastTo_a1_ab_apply (shapeCast ⟨2, ![a, 1]⟩ v hc) hb p c).trans
    (Cert.Keepdims.shapeCast_a_a1_apply v hc p 0)

end Cert.RowReduce

end
-- ==== Proof.LibDenseLayer.lean ====
/-
  A dense graph layer over the extended reals, and a rank-2 matrix product read at an entry.

  The layer: for an adjacency matrix `A` ([N, N]), features `X` ([N, K]), weights `W` ([K, M]), a bias `b` (M
  entries) and a scale `s`, entry (r, c) of the layer's output is
      (∑ j, ((∑ k, A(r,k) · X(k,j)) + s · X(r,j)) · W(j,c)) + b(c):
  the neighbours' features summed and added to the scaled own features, then the linear map and the bias. `rowLayer`
  is the same entry written from row r of `A` and row r of `X` alone, which is what one row band of a blocked
  evaluation has at hand; `layerAt` is `rowLayer` at the two rows (`layerAt_eq_rowLayer`).

  `matmul_rows_cols`: a matrix unit's product of an [A, K] by a [K, B] matrix into a zero accumulator, read at (p, q),
  is ∑ k, L(p,k) · R(k,q) — stated for any dimension record whose four index facts (the left index takes the output
  row and the contraction position, the right index the contraction position and the output column) are supplied.
-/
import Idealize.ShloMosaic.Lib.ValueIdx
import Idealize.ShloMosaic.Lib.Pipeline.Value
import Idealize.ShloMosaic.PureOps.Ideal.Laws

noncomputable section

namespace Cert.DenseLayer

open Idealize.ShloMosaic Idealize.ShloMosaic.ValueIdx

/-- Entry `c` of one output row of the layer, from that row `a` of the adjacency matrix and that row `xr` of the
    features: `(∑ j, ((∑ k, a k · X(k,j)) + s · xr j) · W(j,c)) + b c`. -/
def rowLayer {N K M : ℕ} (a : Fin N → EReal) (X : (⟨2, ![N, K]⟩ : Shape).Idx → EReal)
    (W : (⟨2, ![K, M]⟩ : Shape).Idx → EReal) (b : Fin M → EReal) (s : EReal) (xr : Fin K → EReal) (c : Fin M) : EReal :=
  (∑ j : Fin K, ((∑ k : Fin N, a k * X (ix2 k j)) + s * xr j) * W (ix2 j c)) + b c

/-- Entry (r, c) of the layer's output. -/
def layerAt {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) : EReal :=
  (∑ j : Fin K, ((∑ k : Fin N, A (ix2 r k) * X (ix2 k j)) + s * X (ix2 r j)) * W (ix2 j c)) + b c

/-- The entry from the two rows it depends on. -/
theorem layerAt_eq_rowLayer {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    layerAt A X W b s r c = rowLayer (fun k => A (ix2 r k)) X W b s (fun j => X (ix2 r j)) c := rfl

/-- The same entry with the own-features term written first (`s · X(r,j) + ∑ k, A(r,k) · X(k,j)`): addition of
    extended reals is commutative. -/
theorem layerAt_comm {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    (∑ j : Fin K, (s * X (ix2 r j) + ∑ k : Fin N, A (ix2 r k) * X (ix2 k j)) * W (ix2 j c)) + b c = layerAt A X W b s r c := by
  unfold layerAt
  refine congrArg (· + b c) (Finset.sum_congr rfl fun j _ => ?_)
  rw [add_comm]

/-- A matrix product into a zero accumulator, read at (p, q): the sum over the contracted axis of the left operand's
    row p times the right operand's column q. -/
theorem matmul_rows_cols {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) (p : Fin A) (q : Fin B) :
    FloatOps.matmul d prec L R (constant ⟨2, ![A, B]⟩ .f32 0x00000000#32) (ix2 p q)
      = ∑ k : Fin K, L (ix2 p k) * R (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.DenseLayer

end
-- ==== Proof.PayloadProj.lean ====
/-
  The first kernel's arithmetic, read at one entry of a block.

  A block holds 4000 rows of 128 features. For each row the kernel forms the row's mean (the lane sum divided by
  128), subtracts it, forms the unbiased standard deviation (the lane sum of the squared differences divided by 127,
  then the square root), rescales entry k by the affine pair a2 k, b2 k around the division by (std + eps),
  multiplies the whole row by the row's degree factor, and finally multiplies the 4000 x 128 block of such rows by
  the 128 x 128 weight matrix. The format changes to the 16-bit float are the identity on extended reals.

  Every stage depends on one row only: the mean and the deviation of row p on the 128 entries of row p, the
  rescaled entry (p, k) on those and on a2 k, b2 k and the factor of row p, and entry (p, q) of the product on the
  rescaled row p and column q of the weights. So entry (p, q) of the block is the row-wise specification's
  projected feature q of row p.
-/
import proofs.«146006_j65429531787486_2_alg».proof.Proof.Gen.KernelIdeal.Skeleton
import proofs.«146006_j65429531787486_2_alg».proof.Proof.Spec
import proofs.«146006_j65429531787486_2_alg».proof.Proof.LibRowReduce
import proofs.«146006_j65429531787486_2_alg».proof.Proof.LibDenseLayer
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payload

open Cert.KernelIdeal Cert.KernelIdeal.Facts₀ Cert.KernelIdeal.Facts Idealize.ShloMosaic Idealize.ShloMosaic.ValueIdx

/-! ## The stages of the block, as values of the whole block -/

/-- The column of row means: the lane sum of each row, kept as a unit axis, divided by 128. -/
def lnMeanCol (x0 : FVec Ideal S4000x128 .f32) : FVec Ideal S4000x1 .f32 :=
  divf (shapeCast S4000x1 (multiReduction .add [1] S4000 x0 0x00000000#32 reduces_S4000x128_S4000 (.inl rfl) rfl)
      shapeCasts_S4000_S4000x1)
    (broadcast S4000x1 (Scalar.ofBits .f32 0x43000000#32))

/-- The block with each row's mean subtracted from the row's entries. -/
def lnCentered (x0 : FVec Ideal S4000x128 .f32) : FVec Ideal S4000x128 .f32 :=
  subf x0 (broadcastTo S4000x128 (lnMeanCol x0) broadcasts_S4000x1_S4000x128)

/-- The column of unbiased standard deviations: the lane sum of the squared differences over 127, under the root. -/
def lnStdCol (x0 : FVec Ideal S4000x128 .f32) : FVec Ideal S4000x1 .f32 :=
  sqrt (divf (shapeCast S4000x1
        (multiReduction .add [1] S4000 (mulf (lnCentered x0) (lnCentered x0)) 0x00000000#32 reduces_S4000x128_S4000 (.inl rfl) rfl)
        shapeCasts_S4000_S4000x1)
    (broadcast S4000x1 (Scalar.ofBits .f32 0x42FE0000#32)))

/-- The normalised, affinely rescaled and degree-scaled block. -/
def lnFeat (x0 : FVec Ideal S4000x128 .f32) (a2 b2 : FVec Ideal S1x128 .f32) (s : FVec Ideal S4000x1 .f32) :
    FVec Ideal S4000x128 .f32 :=
  mulf
    (addf
      (divf (mulf (broadcastTo S4000x128 (shapeCast S1x128 a2 shapeCasts_S1x128_S1x128) broadcasts_S1x128_S4000x128) (lnCentered x0))
        (broadcastTo S4000x128 (addf (lnStdCol x0) (broadcast S4000x1 (Scalar.ofBits .f32 0x358637BD#32))) broadcasts_S4000x1_S4000x128))
      (broadcastTo S4000x128 (shapeCast S1x128 b2 shapeCasts_S1x128_S1x128) broadcasts_S1x128_S4000x128))
    (broadcastTo S4000x128 (shapeCast S4000x1 s shapeCasts_S4000x1_S4000x1) broadcasts_S4000x1_S4000x128)

/-- The payload is the product of the rescaled block with the weights, into a zero accumulator, between format
    changes that do nothing to extended reals. -/
theorem pay0_eq (x0 : Vec Ideal S4000x128 .f32) (a2 b2 : Vec Ideal S1x128 .f32) (s : Vec Ideal S4000x1 .f32)
    (w : Vec Ideal S128x128 .f32) :
    Gen.k0_pay1 (F := Ideal) x0 a2 b2 s w
      = truncf .bf16 (matmul dot_S4000x128_S128x128_S4000x128_1_0_0_1_n_n none
          (truncf .bf16 (lnFeat x0 a2 b2 s) bitsLt_bf16_f32) (truncf .bf16 w bitsLt_bf16_f32)
          (constant S4000x128 .f32 0x00000000#32)) bitsLt_bf16_f32 := rfl

/-! ## Each stage at an entry -/

/-- The mean column at row p, whatever the unit coordinate: the specification's mean of row p. -/
theorem lnMeanCol_apply (x0 : FVec Ideal S4000x128 .f32) (p : Fin 4000) (u : Fin 1) :
    lnMeanCol x0 (ix2 p u) = Cert.Spec.mean (fun k => x0 (ix2 p k)) := by
  unfold lnMeanCol Cert.Spec.mean Cert.Spec.c128
  rw [divf_apply, broadcast_apply]
  refine congrArg (fun t => Ideal.div t (Ideal.ofBits .f32 0x43000000#32)) ?_
  refine (Cert.Keepdims.shapeCast_a_a1_apply _ _ p u).trans ?_
  exact Cert.RowReduce.rowSum_apply x0 _ _ (.inl rfl) rfl p

/-- The centred block at (p, k): the specification's centred entry k of row p. -/
theorem lnCentered_apply (x0 : FVec Ideal S4000x128 .f32) (p : Fin 4000) (k : Fin 128) :
    lnCentered x0 (ix2 p k) = Cert.Spec.centered (fun k => x0 (ix2 p k)) k := by
  unfold lnCentered Cert.Spec.centered
  rw [subf_apply]
  refine congrArg (fun t => x0 (ix2 p k) - t) ?_
  refine (Cert.Keepdims.broadcastTo_a1_ab_apply _ _ p k).trans ?_
  exact lnMeanCol_apply x0 p 0

/-- The deviation column at row p: the specification's unbiased standard deviation of row p. -/
theorem lnStdCol_apply (x0 : FVec Ideal S4000x128 .f32) (p : Fin 4000) (u : Fin 1) :
    lnStdCol x0 (ix2 p u) = Cert.Spec.std (fun k => x0 (ix2 p k)) := by
  unfold lnStdCol Cert.Spec.std Cert.Spec.c127
  show Ideal.sqrt (Ideal.div _ (Ideal.ofBits .f32 0x42FE0000#32)) = _
  refine congrArg (fun t => Ideal.sqrt (Ideal.div t (Ideal.ofBits .f32 0x42FE0000#32))) ?_
  refine (Cert.Keepdims.shapeCast_a_a1_apply _ _ p u).trans ?_
  refine (Cert.RowReduce.rowSum_apply (mulf (lnCentered x0) (lnCentered x0)) _ _ (.inl rfl) rfl p).trans ?_
  refine Finset.sum_congr rfl fun k _ => ?_
  rw [mulf_apply, lnCentered_apply]

/-- The rescaled block at (p, k): the specification's feature k of row p, from row p, the affine pair's one row
    and the degree factor of row p. -/
theorem lnFeat_apply (x0 : FVec Ideal S4000x128 .f32) (a2 b2 : FVec Ideal S1x128 .f32) (s : FVec Ideal S4000x1 .f32)
    (p : Fin 4000) (k : Fin 128) :
    lnFeat x0 a2 b2 s (ix2 p k)
      = Cert.Spec.feat (fun k => x0 (ix2 p k)) (fun k => a2 (ix2 (0 : Fin 1) k)) (fun k => b2 (ix2 (0 : Fin 1) k))
          (s (ix2 p (0 : Fin 1))) k := by
  unfold lnFeat Cert.Spec.feat Cert.Spec.eps
  rw [mulf_apply, addf_apply, divf_apply, mulf_apply]
  rw [broadcastTo_1b_ab_apply _ _ p k, broadcastTo_1b_ab_apply _ _ p k,
    Cert.Keepdims.broadcastTo_a1_ab_apply _ _ p k, Cert.Keepdims.broadcastTo_a1_ab_apply _ _ p k]
  rw [shapeCast_self, shapeCast_self, shapeCast_self, addf_apply, broadcast_apply, lnCentered_apply, lnStdCol_apply]
  rfl

/-! ## The product with the weights, and the whole payload at an entry -/

/-- Entry (p, q) of the block the kernel stores: the specification's projected feature q of row p — the rescaled
    row p against column q of the weights. -/
theorem pay0_apply (x0 : Vec Ideal S4000x128 .f32) (a2 b2 : Vec Ideal S1x128 .f32) (s : Vec Ideal S4000x1 .f32)
    (w : Vec Ideal S128x128 .f32) (p : Fin 4000) (q : Fin 128) :
    Gen.k0_pay1 (F := Ideal) x0 a2 b2 s w (ix2 p q)
      = Cert.Spec.projRow (fun k => x0 (ix2 p k)) (fun k => a2 (ix2 (0 : Fin 1) k)) (fun k => b2 (ix2 (0 : Fin 1) k))
          (s (ix2 p (0 : Fin 1))) (fun k j => w (ix2 k j)) q := by
  rw [pay0_eq, truncf_apply]
  unfold Cert.Spec.projRow
  refine (Cert.DenseLayer.matmul_rows_cols dot_S4000x128_S128x128_S4000x128_1_0_0_1_n_n rfl rfl
    (fun _ _ => rfl) (fun i c => DotDims.lhsIdx_val_of_single _ rfl i c) (fun i c => DotDims.rhsIdx_val_of_single _ rfl i c)
    (fun _ _ => rfl) none (truncf .bf16 (lnFeat x0 a2 b2 s) bitsLt_bf16_f32) (truncf .bf16 w bitsLt_bf16_f32) p q).trans ?_
  refine Finset.sum_congr rfl fun k _ => ?_
  rw [truncf_apply, truncf_apply, lnFeat_apply]

end Cert.KernelIdeal.Payload

end
-- ==== Proof.Region0.lean ====
/-
  From the blocks the first call writes back to its whole output array.

  The first call runs over 25 grid points.  At point `t` it stages rows `4000 t … 4000 t + 3999` of the
  feature array and of the out-degree factor column, the two parameter rows and the weight matrix whole,
  and writes back rows `4000 t … 4000 t + 3999` of the output.  Entry `(p, q)` of the block it writes is the
  row projection `Cert.Spec.projRow` of row `p` of the staged feature block; since row `p` of that block is
  row `4000 t + p` of the array, the block is exactly block `t` of ONE function of the five arrays,
  `projAll`: entry `(r, j)` depends only on row `r` of the features, entry `r` of the degree factor, the
  two parameter rows and column `j` of the weights.  The 25 row blocks tile the 100000 rows (row `r` lies in
  the block of point `r / 4000`) and every point writes its block back, so after the call the output array
  is `projAll` of the arrays the call found.  No algebraic law is used: only where each block sits.
-/
import proofs.«146006_j65429531787486_2_alg».proof.Proof.Gen.KernelIdeal.Frame
import proofs.«146006_j65429531787486_2_alg».proof.Proof.Spec
import proofs.«146006_j65429531787486_2_alg».proof.Proof.PayloadProj
import Idealize.ShloMosaic.Lib.Pipeline.Value
import Idealize.ShloMosaic.Lib.ValueIdx

noncomputable section

namespace Cert.KernelIdeal.Region0

open Cert.KernelIdeal Idealize.ShloMosaic Idealize.ShloMosaic.TcCoe Idealize.SL.Sem
open Idealize.ShloMosaic.ValueIdx
open Idealize.ShloMosaic.Pipeline (Dat)

theorem zeroOffsets : (![0, 0] : Fin 2 → Nat) = fun _ => 0 := funext fun a => by fin_cases a <;> rfl

/-- The projected features of every node, as one function of the five arrays the first call reads: entry
    `(r, j)` is the projection of row `r` of the features, normalised with the two parameter rows, scaled by
    the node's out-degree factor, against column `j` of the weights. -/
def projAll (A0 : S100000x128.Idx → EReal) (A1 : S100000x1.Idx → EReal) (A2 A3 : S1x128.Idx → EReal)
    (A4 : S128x128.Idx → EReal) : S100000x128.Idx → EReal := fun i =>
  Cert.Spec.projRow (fun k => A0 (ix2 (i 0) k)) (fun k => A2 (ix2 (0 : Fin 1) k)) (fun k => A3 (ix2 (0 : Fin 1) k))
    (A1 (ix2 (i 0) (0 : Fin 1))) (fun k j' => A4 (ix2 k j')) (i 1)

theorem projAll_apply (A0 : S100000x128.Idx → EReal) (A1 : S100000x1.Idx → EReal) (A2 A3 : S1x128.Idx → EReal)
    (A4 : S128x128.Idx → EReal) (r : Fin 100000) (j : Fin 128) :
    projAll A0 A1 A2 A3 A4 (ix2 r j) = Cert.Spec.projRow (fun k => A0 (ix2 r k)) (fun k => A2 (ix2 (0 : Fin 1) k))
      (fun k => A3 (ix2 (0 : Fin 1) k)) (A1 (ix2 r (0 : Fin 1))) (fun k j' => A4 (ix2 k j')) j := rfl

/-- The index maps of the six windows, decided over the 25 grid points: the feature, degree-factor and
    output windows take row block `t` at point `t`; the two parameter rows and the weights are whole. -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- Row `p` of the block of grid point `t` is row `4000 t + p` of the array. -/
def rowAt (t : Fin cfg0.N) (p : Fin 4000) : Fin 100000 :=
  ⟨t.val * 4000 + p.val, by have hN : cfg0.N = 25 := Gen.N_0; have := t.isLt; have := p.isLt; omega⟩

/-- The feature block of point `t` holds rows `4000 t … 4000 t + 3999` of the feature array. -/
theorem featBlock_apply (c : Dev nD) (t : Fin cfg0.N) (p : Fin 4000) (k : Fin 128) :
    (Gen.iblk0 V c 0 t : S4000x128.Idx → EReal) (ix2 p k) = (V c main_arg0 : S100000x128.Idx → EReal) (ix2 (rowAt t p) k) := by
  obtain ⟨e00, e01, -⟩ := blockIndex t
  show (V c main_arg0 : S100000x128.Idx → EReal) (((cfg0.win 0).blk t).view.emb (ix2 p k)) = _
  refine congrArg (V c main_arg0 : S100000x128.Idx → EReal) (funext fun a => Fin.ext ?_)
  match a with
  | ⟨0, _⟩ => show win0_0.index t (0 : Fin 2) * 4000 + 1 * p.val = t.val * 4000 + p.val; omega
  | ⟨1, _⟩ => show win0_0.index t (1 : Fin 2) * 128 + 1 * k.val = k.val; omega

/-- The degree-factor block of point `t` holds the same rows of the out-degree factor column. -/
theorem degBlock_apply (c : Dev nD) (t : Fin cfg0.N) (p : Fin 4000) :
    (Gen.iblk0 V c 1 t : S4000x1.Idx → EReal) (ix2 p (0 : Fin 1)) = (V c main_v10 : S100000x1.Idx → EReal) (ix2 (rowAt t p) (0 : Fin 1)) := by
  obtain ⟨-, -, e10, e11, -⟩ := blockIndex t
  show (V c main_v10 : S100000x1.Idx → EReal) (((cfg0.win 1).blk t).view.emb (ix2 p (0 : Fin 1))) = _
  refine congrArg (V c main_v10 : S100000x1.Idx → EReal) (funext fun a => Fin.ext ?_)
  match a with
  | ⟨0, _⟩ => show win0_1.index t (0 : Fin 2) * 4000 + 1 * p.val = t.val * 4000 + p.val; omega
  | ⟨1, _⟩ => show win0_1.index t (1 : Fin 2) * 1 + 1 * 0 = 0; omega

/-- The scale row is staged whole at every point. -/
theorem scaleBlock_apply (c : Dev nD) (t : Fin cfg0.N) (k : Fin 128) :
    (Gen.iblk0 V c 2 t : S1x128.Idx → EReal) (ix2 (0 : Fin 1) k) = (V c main_v15 : S1x128.Idx → EReal) (ix2 (0 : Fin 1) k) := by
  obtain ⟨-, -, -, -, e20, e21, -⟩ := blockIndex t
  show (V c main_v15 : S1x128.Idx → EReal) (((cfg0.win 2).blk t).view.emb (ix2 (0 : Fin 1) k)) = _
  refine congrArg (V c main_v15 : S1x128.Idx → EReal) (funext fun a => Fin.ext ?_)
  match a with
  | ⟨0, _⟩ => show win0_2.index t (0 : Fin 2) * 1 + 1 * 0 = 0; omega
  | ⟨1, _⟩ => show win0_2.index t (1 : Fin 2) * 128 + 1 * k.val = k.val; omega

/-- The shift row is staged whole at every point. -/
theorem shiftBlock_apply (c : Dev nD) (t : Fin cfg0.N) (k : Fin 128) :
    (Gen.iblk0 V c 3 t : S1x128.Idx → EReal) (ix2 (0 : Fin 1) k) = (V c main_v16 : S1x128.Idx → EReal) (ix2 (0 : Fin 1) k) := by
  obtain ⟨-, -, -, -, -, -, e30, e31, -⟩ := blockIndex t
  show (V c main_v16 : S1x128.Idx → EReal) (((cfg0.win 3).blk t).view.emb (ix2 (0 : Fin 1) k)) = _
  refine congrArg (V c main_v16 : S1x128.Idx → EReal) (funext fun a => Fin.ext ?_)
  match a with
  | ⟨0, _⟩ => show win0_3.index t (0 : Fin 2) * 1 + 1 * 0 = 0; omega
  | ⟨1, _⟩ => show win0_3.index t (1 : Fin 2) * 128 + 1 * k.val = k.val; omega

/-- The weight matrix is staged whole at every point. -/
theorem weightBlock_apply (c : Dev nD) (t : Fin cfg0.N) (k j : Fin 128) :
    (Gen.iblk0 V c 4 t : S128x128.Idx → EReal) (ix2 k j) = (V c main_arg3 : S128x128.Idx → EReal) (ix2 k j) := by
  obtain ⟨-, -, -, -, -, -, -, -, e40, e41, -⟩ := blockIndex t
  show (V c main_arg3 : S128x128.Idx → EReal) (((cfg0.win 4).blk t).view.emb (ix2 k j)) = _
  refine congrArg (V c main_arg3 : S128x128.Idx → EReal) (funext fun a => Fin.ext ?_)
  match a with
  | ⟨0, _⟩ => show win0_4.index t (0 : Fin 2) * 128 + 1 * k.val = k.val; omega
  | ⟨1, _⟩ => show win0_4.index t (1 : Fin 2) * 128 + 1 * j.val = j.val; omega

/-- Entry `(p, q)` of the output block of point `t` sits at `(4000 t + p, q)` of the output array. -/
theorem outBlock_emb (t : Fin cfg0.N) (p : Fin 4000) (q : Fin 128) :
    (((cfg0.win 5).blk t).view.emb (ix2 p q) : S100000x128.Idx) = ix2 (rowAt t p) q := by
  obtain ⟨-, -, -, -, -, -, -, -, -, -, e50, e51⟩ := blockIndex t
  refine funext fun a => Fin.ext ?_
  match a with
  | ⟨0, _⟩ => show win0_5.index t (0 : Fin 2) * 4000 + 1 * p.val = t.val * 4000 + p.val; omega
  | ⟨1, _⟩ => show win0_5.index t (1 : Fin 2) * 128 + 1 * q.val = q.val; omega

/-- The whole-array function at the arrays the region finds. -/
abbrev projOf (c : Dev nD) : S100000x128.Idx → EReal :=
  projAll (V c main_arg0) (V c main_v10) (V c main_v15) (V c main_v16) (V c main_arg3)

/-- What point `t` writes back is block `t` of the projected features: the body's one store leaves its payload,
    the payload at `(p, q)` is the row projection of the staged blocks, and each staged block is the rows of its
    array the output block covers. -/
theorem flushed_eq (c : Dev nD) (t : Fin cfg0.N) :
    (Gen.dat0 (F := Ideal) V c).flushed 5 t = ((cfg0.win 5).blk t).view.read (Elt Ideal) (projOf V c) := by
  show (cfg0.win 5).cut (grid0.coords t) ((Gen.dat0 V c).after 5 t) = _
  rw [Gen.after0_5]
  unfold Gen.out0_5
  rw [View.canon_unit_zero zeroOffsets]
  simp only [View.ld_unit_zero (S := S4000x128) zeroOffsets, View.ld_unit_zero (S := S1x128) zeroOffsets,
    View.ld_unit_zero (S := S4000x1) zeroOffsets, View.ld_unit_zero (S := S128x128) zeroOffsets]
  refine funext fun (y : S4000x128.Idx) => ?_
  obtain ⟨p, q, rfl⟩ : ∃ (p : Fin 4000) (q : Fin 128), y = ix2 p q := ⟨y 0, y 1, eq_ix2 y⟩
  show Gen.k0_pay1 (F := Ideal) (Gen.iblk0 V c 0 t) (Gen.iblk0 V c 2 t) (Gen.iblk0 V c 3 t) (Gen.iblk0 V c 1 t) (Gen.iblk0 V c 4 t) (ix2 p q)
    = projOf V c (((cfg0.win 5).blk t).view.emb (ix2 p q))
  rw [outBlock_emb t p q]
  refine (Cert.KernelIdeal.Payload.pay0_apply (Gen.iblk0 V c 0 t) (Gen.iblk0 V c 2 t) (Gen.iblk0 V c 3 t) (Gen.iblk0 V c 1 t) (Gen.iblk0 V c 4 t) p q).trans ?_
  show _ = Cert.Spec.projRow (fun k => (V c main_arg0 : S100000x128.Idx → EReal) (ix2 (rowAt t p) k)) (fun k => (V c main_v15 : S1x128.Idx → EReal) (ix2 (0 : Fin 1) k))
      (fun k => (V c main_v16 : S1x128.Idx → EReal) (ix2 (0 : Fin 1) k)) ((V c main_v10 : S100000x1.Idx → EReal) (ix2 (rowAt t p) (0 : Fin 1))) (fun k j' => (V c main_arg3 : S128x128.Idx → EReal) (ix2 k j')) q
  rw [degBlock_apply V c t p]
  simp only [featBlock_apply V c t p, scaleBlock_apply V c t, shiftBlock_apply V c t, weightBlock_apply V c t]

/-- An index of the output array lies in point `t`'s block iff each coordinate lies in the block's range on its axis. -/
theorem mem_outBlock (t : Fin cfg0.N) (i : S100000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v18).slice (win0_5.rect t)).set ↔ _
  rw [View.set_slice_whole, Rect.mem_set_unit]
  exact Iff.rfl

/-- The 25 row blocks tile the 100000 rows: row `r` lies in the block of point `r / 4000`, and every point writes back. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 25 := Gen.N_0
  have ht : (i 0).val / 4000 < cfg0.N := by omega
  obtain ⟨-, -, -, -, -, -, -, -, -, -, e50, e51⟩ := blockIndex ⟨(i 0).val / 4000, ht⟩
  refine ⟨⟨(i 0).val / 4000, ht⟩, Gen.flush0_5 _, ?_⟩
  rw [mem_outBlock]
  intro a
  match a with
  | ⟨0, _⟩ =>
    show win0_5.index ⟨(i 0).val / 4000, ht⟩ (0 : Fin 2) * 4000 ≤ (i 0).val ∧ (i 0).val < win0_5.index ⟨(i 0).val / 4000, ht⟩ (0 : Fin 2) * 4000 + 4000
    rw [e50]; show (i 0).val / 4000 * 4000 ≤ (i 0).val ∧ (i 0).val < (i 0).val / 4000 * 4000 + 4000; omega
  | ⟨1, _⟩ =>
    show win0_5.index ⟨(i 0).val / 4000, ht⟩ (1 : Fin 2) * 128 ≤ (i 1).val ∧ (i 1).val < win0_5.index ⟨(i 0).val / 4000, ht⟩ (1 : Fin 2) * 128 + 128
    rw [e51]; omega

/-- After the first call the output array holds the projected features of every node. -/
theorem arr_eq (c : Dev nD) : (Gen.dat0 (F := Ideal) V c).arrAt 5 cfg0.N = projOf V c :=
  (Gen.dat0 (F := Ideal) V c).arrAt_eq_of_cover 5 (projOf V c) (fun t _ => flushed_eq V c t) covered

/-- The same, entry by entry: row `r`, column `j` of the first call's output is the projection of feature row `r`. -/
theorem arrAt0 (c : Dev nD) (r : Fin 100000) (j : Fin 128) :
    ((Gen.dat0 (F := Ideal) V c).arrAt 5 cfg0.N : S100000x128.Idx → EReal) (ix2 r j)
      = Cert.Spec.projRow (fun k => (V c main_arg0 : S100000x128.Idx → EReal) (ix2 r k)) (fun k => (V c main_v15 : S1x128.Idx → EReal) (ix2 (0 : Fin 1) k)) (fun k => (V c main_v16 : S1x128.Idx → EReal) (ix2 (0 : Fin 1) k)) ((V c main_v10 : S100000x1.Idx → EReal) (ix2 r (0 : Fin 1))) (fun k j' => (V c main_arg3 : S128x128.Idx → EReal) (ix2 k j')) j := by
  rw [arr_eq V c]
  exact projAll_apply _ _ _ _ _ r j

end Cert.KernelIdeal.Region0

end
-- ==== Proof.Region1.lean ====
/-
  The second tensor-core region: each of its 25 grid points takes a block of 4000 rows of the aggregated
  messages, the matching 4000 in-degree factors, the one bias row and the matching 4000 rows of the input
  features, and writes back the block of 4000 rows of the result.

  First the arithmetic of one block at an entry (row `p`, column `q`): the aggregated message times the row's
  in-degree factor, plus the column's bias, cut below at zero, plus the input feature.  The factor is a column
  `[4000, 1]` spread over the 128 columns and the bias a row `[1, 128]` spread over the 4000 rows, so the entry
  depends on the message and the feature at `(p, q)`, on the factor at `(p, 0)` and on the bias at `(0, q)` only.

  Then the whole array.  Grid point `t` reads and writes rows `4000·t … 4000·t + 3999` (all 128 columns) of the
  row-blocked arrays and the whole bias row, so what it writes back is rows `4000·t …` of ONE function of the four
  whole arrays — the same entrywise formula at row `r` — and the 25 blocks tile the 100000 rows: row `r` lies in the
  block of point `r / 4000`.  Hence the output array after the region is that function everywhere.
-/
import proofs.«146006_j65429531787486_2_alg».proof.Proof.Gen.KernelIdeal.Frame
import proofs.«146006_j65429531787486_2_alg».proof.Proof.Spec
import proofs.«146006_j65429531787486_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region1

open Cert.KernelIdeal Idealize.ShloMosaic Idealize.ShloMosaic.TcCoe Idealize.SL.Sem
open Idealize.ShloMosaic.ValueIdx
open Idealize.ShloMosaic.Pipeline (Dat)

/-! ## One block at an entry -/

/-- The block's arithmetic with the layout operations' side conditions as variables: the three casts are casts of
    a shape to itself (the identity), the column broadcast reads the factor of the entry's row, the row broadcast
    reads the bias of the entry's column, and the zero word is the real number zero. -/
theorem combine_apply (agg : Vec Ideal S4000x128 .f32) (s : Vec Ideal S4000x1 .f32) (b : Vec Ideal S1x128 .f32)
    (x : Vec Ideal S4000x128 .f32)
    (h1 : S4000x128.ShapeCasts S4000x128) (h2 : S4000x1.ShapeCasts S4000x1) (h3 : S1x128.ShapeCasts S1x128)
    (h4 : S4000x1.Broadcasts S4000x128) (h5 : S1x128.Broadcasts S4000x128) (p : Fin 4000) (q : Fin 128) :
    (addf (maximumf (addf (mulf (shapeCast S4000x128 agg h1) (broadcastTo S4000x128 (shapeCast S4000x1 s h2) h4))
        (broadcastTo S4000x128 (shapeCast S1x128 b h3) h5))
      (broadcast S4000x128 (Scalar.ofBits (F := Ideal) .f32 0x00000000#32))) x : FVec Ideal S4000x128 .f32) (ix2 p q)
      = Cert.Spec.combine (agg (ix2 p q)) (s (ix2 p (0 : Fin 1))) (b (ix2 (0 : Fin 1) q)) (x (ix2 p q)) := by
  rw [shapeCast_self, shapeCast_self, shapeCast_self]
  show max (agg (ix2 p q) * broadcastTo S4000x128 s h4 (ix2 p q) + broadcastTo S4000x128 b h5 (ix2 p q))
      (Ideal.ofBits .f32 0x00000000#32) + x (ix2 p q) = _
  rw [Cert.Keepdims.broadcastTo_a1_ab_apply s h4 p q, broadcastTo_1b_ab_apply b h5 p q, Ideal.ofBits_zero_f32]
  rfl

/-- The second region's payload at entry `(p, q)` of a block. -/
theorem pay1_apply (agg : Vec Ideal S4000x128 .f32) (s : Vec Ideal S4000x1 .f32) (b : Vec Ideal S1x128 .f32)
    (x : Vec Ideal S4000x128 .f32) (p : Fin 4000) (q : Fin 128) :
    Gen.k1_pay1 (F := Ideal) agg s b x (ix2 p q)
      = Cert.Spec.combine (agg (ix2 p q)) (s (ix2 p (0 : Fin 1))) (b (ix2 (0 : Fin 1) q)) (x (ix2 p q)) :=
  combine_apply agg s b x _ _ _ _ _ p q

/-! ## The whole array -/

/-- The region's result as ONE function of the four whole arrays: at row `r` and column `j` the entrywise formula of the
    message and the feature at `(r, j)`, the in-degree factor of row `r` and the bias of column `j`. -/
def out (A : S100000x128.Idx → EReal) (D : S100000x1.Idx → EReal) (B : S1x128.Idx → EReal)
    (X : S100000x128.Idx → EReal) : S100000x128.Idx → EReal := fun i =>
  Cert.Spec.combine (A i) (D (ix2 (i 0 : Fin 100000) (0 : Fin 1))) (B (ix2 (0 : Fin 1) (i 1 : Fin 128))) (X i)

theorem out_apply (A : S100000x128.Idx → EReal) (D : S100000x1.Idx → EReal) (B : S1x128.Idx → EReal)
    (X : S100000x128.Idx → EReal) (r : Fin 100000) (j : Fin 128) :
    out A D B X (ix2 r j) = Cert.Spec.combine (A (ix2 r j)) (D (ix2 r (0 : Fin 1))) (B (ix2 (0 : Fin 1) j)) (X (ix2 r j)) := rfl

/-- One entry of a block whose four input blocks are the matching rows of whole arrays. -/
theorem block_entry (A : S100000x128.Idx → EReal) (D : S100000x1.Idx → EReal) (B : S1x128.Idx → EReal)
    (X : S100000x128.Idx → EReal)
    (x0 : Vec Ideal S4000x128 .f32) (x1 : Vec Ideal S4000x1 .f32) (x2 : Vec Ideal S1x128 .f32) (x3 : Vec Ideal S4000x128 .f32)
    (p : Fin 4000) (q : Fin 128) (k : S100000x128.Idx)
    (h0 : x0 (ix2 p q) = A k) (h1 : x1 (ix2 p (0 : Fin 1)) = D (ix2 (k 0 : Fin 100000) (0 : Fin 1)))
    (h2 : x2 (ix2 (0 : Fin 1) q) = B (ix2 (0 : Fin 1) (k 1 : Fin 128))) (h3 : x3 (ix2 p q) = X k) :
    Gen.k1_pay1 (F := Ideal) x0 x1 x2 x3 (ix2 p q) = out A D B X k := by
  rw [pay1_apply, h0, h1, h2, h3]; rfl

theorem hz : (![0, 0] : Fin 2 → Nat) = fun _ => 0 := funext fun a => by fin_cases a <;> rfl

variable (V : (c : Dev nD) → (b : Ref sig .tc) → Buf (Elt Ideal) ((c : Thread nD τ).loc b))

/-- The index maps, decided over the 25 grid points: every row-blocked window (messages, factors, features, result) is
    at block row `t`, block column `0`, and the bias row's window stays at its one block. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Every block row of the result is some grid point's. -/
theorem idx_onto : ∀ q0 : Fin 25, ∃ t : Fin cfg1.N, win1_4.index t = ![q0.val, 0] :=
  (by decide +kernel : ∀ q0 : Fin 25, ∃ t : Fin grid1.N, win1_4.index t = ![q0.val, 0])

/-- The messages' block at point `t`, entry `(p, q)`, is the whole array where the result's block has that entry. -/
theorem blk0_apply (c : Dev nD) (t : Fin cfg1.N) (p : Fin 4000) (q : Fin 128) :
    (Gen.iblk1 V c 0 t : Vec Ideal S4000x128 .f32) (ix2 p q)
      = (V c main_v29 : S100000x128.Idx → EReal) (((cfg1.win 4).blk t).view.emb (ix2 p q)) := by
  obtain ⟨e00, e01, -, -, -, -, -, -, e40, e41⟩ := idx_facts t
  show V c main_v29 (((cfg1.win 0).blk t).view.emb (ix2 p q)) = V c main_v29 (((cfg1.win 4).blk t).view.emb (ix2 p q))
  have h : ((cfg1.win 0).blk t).view.emb (ix2 p q) = ((cfg1.win 4).blk t).view.emb (ix2 p q) := by
    funext a; apply Fin.ext
    match a with
    | ⟨0, _⟩ => show win1_0.index t (0 : Fin 2) * 4000 + 1 * p.val = win1_4.index t (0 : Fin 2) * 4000 + 1 * p.val; omega
    | ⟨1, _⟩ => show win1_0.index t (1 : Fin 2) * 128 + 1 * q.val = win1_4.index t (1 : Fin 2) * 128 + 1 * q.val; omega
  rw [h]

/-- The factors' block at point `t`, entry `(p, 0)`, is the whole column at the row of the result's entry. -/
theorem blk1_apply (c : Dev nD) (t : Fin cfg1.N) (p : Fin 4000) (q : Fin 128) :
    (Gen.iblk1 V c 1 t : Vec Ideal S4000x1 .f32) (ix2 p (0 : Fin 1))
      = (V c main_v14 : S100000x1.Idx → EReal)
          (ix2 ((((cfg1.win 4).blk t).view.emb (ix2 p q) : S100000x128.Idx) 0 : Fin 100000) (0 : Fin 1)) := by
  obtain ⟨-, -, e10, e11, -, -, -, -, e40, e41⟩ := idx_facts t
  show V c main_v14 (((cfg1.win 1).blk t).view.emb (ix2 p (0 : Fin 1))) = V c main_v14 _
  have h : ((cfg1.win 1).blk t).view.emb (ix2 p (0 : Fin 1))
      = ix2 ((((cfg1.win 4).blk t).view.emb (ix2 p q) : S100000x128.Idx) 0 : Fin 100000) (0 : Fin 1) := by
    funext a; apply Fin.ext
    match a with
    | ⟨0, _⟩ => show win1_1.index t (0 : Fin 2) * 4000 + 1 * p.val = win1_4.index t (0 : Fin 2) * 4000 + 1 * p.val; omega
    | ⟨1, _⟩ => show win1_1.index t (1 : Fin 2) * 1 + 1 * 0 = 0; omega
  rw [h]; rfl

/-- The bias window's one block at entry `(0, q)` is the bias row at the column of the result's entry. -/
theorem blk2_apply (c : Dev nD) (t : Fin cfg1.N) (p : Fin 4000) (q : Fin 128) :
    (Gen.iblk1 V c 2 t : Vec Ideal S1x128 .f32) (ix2 (0 : Fin 1) q)
      = (V c main_v17 : S1x128.Idx → EReal)
          (ix2 (0 : Fin 1) ((((cfg1.win 4).blk t).view.emb (ix2 p q) : S100000x128.Idx) 1 : Fin 128)) := by
  obtain ⟨-, -, -, -, e20, e21, -, -, e40, e41⟩ := idx_facts t
  show V c main_v17 (((cfg1.win 2).blk t).view.emb (ix2 (0 : Fin 1) q)) = V c main_v17 _
  have h : ((cfg1.win 2).blk t).view.emb (ix2 (0 : Fin 1) q)
      = ix2 (0 : Fin 1) ((((cfg1.win 4).blk t).view.emb (ix2 p q) : S100000x128.Idx) 1 : Fin 128) := by
    funext a; apply Fin.ext
    match a with
    | ⟨0, _⟩ => show win1_2.index t (0 : Fin 2) * 1 + 1 * 0 = 0; omega
    | ⟨1, _⟩ => show win1_2.index t (1 : Fin 2) * 128 + 1 * q.val = win1_4.index t (1 : Fin 2) * 128 + 1 * q.val; omega
  rw [h]; rfl

/-- The features' block at point `t`, entry `(p, q)`, is the whole array where the result's block has that entry. -/
theorem blk3_apply (c : Dev nD) (t : Fin cfg1.N) (p : Fin 4000) (q : Fin 128) :
    (Gen.iblk1 V c 3 t : Vec Ideal S4000x128 .f32) (ix2 p q)
      = (V c main_arg0 : S100000x128.Idx → EReal) (((cfg1.win 4).blk t).view.emb (ix2 p q)) := by
  obtain ⟨-, -, -, -, -, -, e30, e31, e40, e41⟩ := idx_facts t
  show V c main_arg0 (((cfg1.win 3).blk t).view.emb (ix2 p q)) = V c main_arg0 (((cfg1.win 4).blk t).view.emb (ix2 p q))
  have h : ((cfg1.win 3).blk t).view.emb (ix2 p q) = ((cfg1.win 4).blk t).view.emb (ix2 p q) := by
    funext a; apply Fin.ext
    match a with
    | ⟨0, _⟩ => show win1_3.index t (0 : Fin 2) * 4000 + 1 * p.val = win1_4.index t (0 : Fin 2) * 4000 + 1 * p.val; omega
    | ⟨1, _⟩ => show win1_3.index t (1 : Fin 2) * 128 + 1 * q.val = win1_4.index t (1 : Fin 2) * 128 + 1 * q.val; omega
  rw [h]

/-- What grid point `t` writes back is its block of rows of `out` of the four arrays as the region finds them. -/
theorem flushed_eq (c : Dev nD) (t : Fin cfg1.N) :
    (Gen.dat1 (F := Ideal) V c).flushed 4 t = ((cfg1.win 4).blk t).view.read (Elt Ideal)
      (out (V c main_v29) (V c main_v14) (V c main_v17) (V c main_arg0)) := by
  show (cfg1.win 4).cut (grid1.coords t) ((Gen.dat1 V c).after 4 t) = _
  rw [Gen.after1_4]
  unfold Gen.out1_4
  rw [View.canon_unit_zero hz]
  simp only [View.ld_unit_zero (S := S4000x128) hz, View.ld_unit_zero (S := S4000x1) hz, View.ld_unit_zero (S := S1x128) hz]
  funext y
  obtain ⟨p, q, rfl⟩ : ∃ (p : Fin 4000) (q : Fin 128), y = ix2 p q := ⟨y 0, y 1, eq_ix2 y⟩
  exact block_entry (V c main_v29) (V c main_v14) (V c main_v17) (V c main_arg0)
    (Gen.iblk1 V c 0 t) (Gen.iblk1 V c 1 t) (Gen.iblk1 V c 2 t) (Gen.iblk1 V c 3 t) p q
    (((cfg1.win 4).blk t).view.emb (ix2 p q))
    (blk0_apply V c t p q) (blk1_apply V c t p q) (blk2_apply V c t p q) (blk3_apply V c t p q)

/-- An index of the result array is in point `t`'s block iff each coordinate is in the block's range on its axis. -/
theorem mem_blk (t : Fin cfg1.N) (i : S100000x128.Idx) :
    i ∈ ((cfg1.win 4).blk t).view.set ↔ ∀ a : Fin 2, win1_4.index t a * S4000x128.size a ≤ (i a).val
      ∧ (i a).val < win1_4.index t a * S4000x128.size a + S4000x128.size a := by
  show i ∈ ((View.whole main_v30).slice (win1_4.rect t)).set ↔ _
  rw [View.set_slice_whole, Rect.mem_set_unit]
  exact Iff.rfl

/-- The 25 blocks of 4000 rows tile the 100000 rows: row `r` is in the block of the point at block row `r / 4000`. -/
theorem cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  obtain ⟨t, ht⟩ := idx_onto ⟨(i 0).val / 4000, by omega⟩
  have q0 : win1_4.index t (0 : Fin 2) = (i 0).val / 4000 := congrFun ht 0
  have q1 : win1_4.index t (1 : Fin 2) = 0 := congrFun ht 1
  refine ⟨t, Gen.flush1_4 t, ?_⟩
  rw [mem_blk]
  intro a
  match a with
  | ⟨0, _⟩ => show win1_4.index t (0 : Fin 2) * 4000 ≤ (i 0).val ∧ (i 0).val < win1_4.index t (0 : Fin 2) * 4000 + 4000; omega
  | ⟨1, _⟩ => show win1_4.index t (1 : Fin 2) * 128 ≤ (i 1).val ∧ (i 1).val < win1_4.index t (1 : Fin 2) * 128 + 128; omega

/-- The result array after the region is `out` of the four arrays as the region finds them. -/
theorem final (c : Dev nD) : (Gen.dat1 (F := Ideal) V c).arrAt 4 cfg1.N
    = out (V c main_v29) (V c main_v14) (V c main_v17) (V c main_arg0) :=
  (Gen.dat1 (F := Ideal) V c).arrAt_eq_of_cover 4 (out (V c main_v29) (V c main_v14) (V c main_v17) (V c main_arg0))
    (fun t _ => flushed_eq V c t) cover

/-- The result array after the region at row `r`, column `j`. -/
theorem arrAt1 (c : Dev nD) (r : Fin 100000) (j : Fin 128) :
    ((Gen.dat1 (F := Ideal) V c).arrAt 4 cfg1.N : S100000x128.Idx → EReal) (ix2 r j)
      = Cert.Spec.combine ((V c main_v29 : S100000x128.Idx → EReal) (ix2 r j))
          ((V c main_v14 : S100000x1.Idx → EReal) (ix2 r (0 : Fin 1)))
          ((V c main_v17 : S1x128.Idx → EReal) (ix2 (0 : Fin 1) j))
          ((V c main_arg0 : S100000x128.Idx → EReal) (ix2 r j)) := by
  rw [final V c]
  exact out_apply _ _ _ _ r j

end Cert.KernelIdeal.Region1

end
-- ==== Proof.Bridge.lean ====
/-
  The two programs meet.

  The kernel program's result is the array its second call leaves; the reference's result is one pure term of
  its seven arguments.  Both are read at an entry (row `r` of the 100000 nodes, column `j` of the 128 features):

  * the kernel's entry is `combine` of the aggregated message at (r, j), the in-degree factor of node r, the bias
    at j and the input feature at (r, j); the aggregated message is the gather-and-sum over the edges of the
    projected features the FIRST call left, whose entry (r', j') is `projRow` of row r' of the input, the affine
    parameters, the out-degree factor of node r' and the weights;
  * the reference's entry is the same `combine` of the same gather-and-sum of ITS projected features, whose entry
    is the same `projRow`.

  The degree factors, the edge index and the gather-and-sum are written with the same host operations in both
  programs, so as functions of their operands they are the same term: nothing is read inside them.  The projected
  features agree entry by entry, hence as arrays, hence so do the aggregated messages and the results.  No law of
  arithmetic is used beyond that: the two programs perform the same operations in the same order on every entry.
-/
import proofs.«146006_j65429531787486_2_alg».proof.Proof.Spec
import proofs.«146006_j65429531787486_2_alg».proof.Proof.KRun
import proofs.«146006_j65429531787486_2_alg».proof.Proof.Region0
import proofs.«146006_j65429531787486_2_alg».proof.Proof.Region1
import proofs.«146006_j65429531787486_2_alg».proof.Proof.RefValue
import Idealize.ShloMosaic.Lib.ValueIdx

noncomputable section

open Idealize.ShloMosaic Idealize.ShloMosaic.TcCoe Idealize.SL.Sem Idealize.ShloMosaic.ValueIdx

namespace Cert.Bridge

open Cert.KernelIdeal.Run

/-- The degree factor of every node (one over the square root of its degree, the degree at least one), as a
    function of the edge endpoints, is one term in the two programs. -/
theorem normOf_eq (idx : IVec Cert.KernelIdeal.S1600000 32) :
    KTerm.normOf idx = Cert.ReferenceIdeal.RefTerm.normOf idx := rfl

/-- Gathering the rows of a table along the edges' sources and summing them by the edges' targets is one term in
    the two programs (the kernel's table is stored in the narrower float format, which changes no value here). -/
theorem agg_eq (T : FVec Ideal Cert.KernelIdeal.S100000x128 .f32) (src dst : IVec Cert.KernelIdeal.S1600000 32) :
    KTerm.agg T src dst = Cert.ReferenceIdeal.RefTerm.agg T src dst := rfl

section
open Cert.KernelIdeal
variable (m : (ℓ : Loc nD τ sig) → Buf (Elt Ideal) ℓ) (ρ : Dev nD → PrngReg) (c : Dev nD)

/-- Core `c`'s launch contents of a buffer. -/
abbrev at0 (b : Ref sig .tc) : Buf (Elt Ideal) ((c : Thread nD τ).loc b) := m ((c : Thread nD τ).loc b)

/-- The projected features as the first call leaves them. -/
abbrev projected : FVec Ideal S100000x128 .bf16 := (Gen.dat0 (Gen.V1 m ρ) c).arrAt 5 cfg0.N

/-- Entry (r, j) of the projected features: row r of the input, normalised, rescaled, scaled by node r's
    out-degree factor, against column j of the weights. -/
theorem projected_apply (r : Fin 100000) (j : Fin 128) :
    projected m ρ c (ix2 r j)
      = Cert.Spec.projRow (fun k => at0 m c main_arg0 (ix2 r k)) (fun k => at0 m c main_arg5 (ix1 k)) (fun k => at0 m c main_arg6 (ix1 k))
          (KTerm.normOf (at0 m c main_arg1) (ix2 r (0 : Fin 1))) (fun k j' => at0 m c main_arg3 (ix2 k j')) j := by
  refine (Cert.KernelIdeal.Region0.arrAt0 (Gen.V1 m ρ) c r j).trans ?_
  rw [V1_arg0, V1_v15, V1_v16, V1_v10, V1_arg3]
  simp only [KTerm.row_apply]

/-- Entry (r, j) of the kernel program's result. -/
theorem kernel_apply (r : Fin 100000) (j : Fin 128) :
    (Gen.W4 m ρ c (Proc.devRef .tc main_v30) : S100000x128.Idx → EReal) (ix2 r j)
      = Cert.Spec.combine (KTerm.agg (projected m ρ c) (at0 m c main_arg1) (at0 m c main_arg2) (ix2 r j))
          (KTerm.normOf (at0 m c main_arg2) (ix2 r (0 : Fin 1))) (at0 m c main_arg4 (ix1 j)) (at0 m c main_arg0 (ix2 r j)) := by
  rw [W4_out]
  refine (Cert.KernelIdeal.Region1.arrAt1 (Gen.V3 m ρ) c r j).trans ?_
  rw [V3_v29, V3_v14, V3_v17, V3_arg0, KTerm.row_apply]

open Cert.ReferenceIdeal.RefTerm in
/-- The reference's result term, evaluated on the kernel program's launch arrays, is the array the kernel
    program's second call leaves: first the projected features agree entry by entry, then the results do. -/
theorem results_eq :
    Cert.ReferenceIdeal.RefTerm.result (at0 m c main_arg0) (at0 m c main_arg1) (at0 m c main_arg2) (at0 m c main_arg3)
        (at0 m c main_arg4) (at0 m c main_arg5) (at0 m c main_arg6)
      = Gen.W4 m ρ c (Proc.devRef .tc main_v30) := by
  have hproj : hp (at0 m c main_arg0) (at0 m c main_arg1) (at0 m c main_arg3) (at0 m c main_arg5) (at0 m c main_arg6)
      = projected m ρ c := by
    funext i
    obtain ⟨r, j, rfl⟩ : ∃ (r : Fin 100000) (j : Fin 128), i = ix2 r j := ⟨i 0, i 1, eq_ix2 i⟩
    rw [hp_apply, projected_apply, normOf_eq]
  funext i
  obtain ⟨r, j, rfl⟩ : ∃ (r : Fin 100000) (j : Fin 128), i = ix2 r j := ⟨i 0, i 1, eq_ix2 i⟩
  rw [kernel_apply]
  unfold Cert.ReferenceIdeal.RefTerm.result
  rw [out_apply, hproj, ← agg_eq, ← normOf_eq]

end

end Cert.Bridge

end
-- ==== Proof.lean ====
/-
  The certificate of a graph-convolution layer: a row-wise layer normalisation, a scaling by the out-degree
  factor and a 128×128 projection (the first kernel call, 25 blocks of 4000 nodes), the sum over the incoming
  edges of the projected source rows (host gather and scatter-add), and a scaling by the in-degree factor, a bias,
  a rectifier and the residual (the second kernel call), against the same layer written with array operations.

  * The three frames.  The two kernel programs terminate, fault nowhere and leave their arguments as launched: the
    generated frame certificates.  The reference is a straight-line host program with nested calls; its run is its
    operations applied in order to the launch memory, and none of them writes an argument.
  * The idealised kernel is the kernel's own text read over the extended reals: the idealisation rewrote nothing,
    so there is nothing to preserve.
  * On the extended reals the two idealised programs, started from memories that agree on the arguments, end with
    the same result.  The kernel program's result is the array its second call leaves (its run, with that array
    named); the reference's is one pure term of the arguments (its run, read back).  The two are equal entry by
    entry: both are `Cert.Spec.combine` of the same gather-and-sum of projected features whose entries are both
    `Cert.Spec.projRow` of the same row — the two programs perform the same arithmetic in the same order, only
    tiled differently and with a change of float format that is the identity here.  No hypothesis on the inputs is
    used.
-/
import proofs.«146006_j65429531787486_2_alg».proof.Defs
import proofs.«146006_j65429531787486_2_alg».proof.Proof.Gen.Kernel
import proofs.«146006_j65429531787486_2_alg».proof.Proof.Gen.Kernel.Skeleton
import proofs.«146006_j65429531787486_2_alg».proof.Proof.Gen.Kernel.Launch
import proofs.«146006_j65429531787486_2_alg».proof.Proof.Gen.Kernel.Points
import proofs.«146006_j65429531787486_2_alg».proof.Proof.Gen.Kernel.Frame
import proofs.«146006_j65429531787486_2_alg».proof.Proof.Gen.KernelIdeal
import proofs.«146006_j65429531787486_2_alg».proof.Proof.Gen.KernelIdeal.Skeleton
import proofs.«146006_j65429531787486_2_alg».proof.Proof.Gen.KernelIdeal.Launch
import proofs.«146006_j65429531787486_2_alg».proof.Proof.Gen.KernelIdeal.Points
import proofs.«146006_j65429531787486_2_alg».proof.Proof.Gen.KernelIdeal.Frame
import proofs.«146006_j65429531787486_2_alg».proof.Proof.Gen.ReferenceIdeal
import proofs.«146006_j65429531787486_2_alg».proof.Proof.Gen.Pre_finite_inputs
import proofs.«146006_j65429531787486_2_alg».proof.Proof.KRun
import proofs.«146006_j65429531787486_2_alg».proof.Proof.RefRun
import proofs.«146006_j65429531787486_2_alg».proof.Proof.RefValue
import proofs.«146006_j65429531787486_2_alg».proof.Proof.RefResult
import proofs.«146006_j65429531787486_2_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs, and each argument buffer ends at the fold of the operations over its launch contents,
    which is the launch contents: no operation writes an argument. -/
theorem frame_referenceIdeal : Cert.frame_ReferenceIdeal := fun m ρ _ =>
  (θ_run Cert.ReferenceIdeal.defs _ _).mono (fun _ h c =>
      ⟨(h c _).trans (Cert.ReferenceIdeal.RunHand.kept_main_arg0 m c),
       (h c _).trans (Cert.ReferenceIdeal.RunHand.kept_main_arg1 m c),
       (h c _).trans (Cert.ReferenceIdeal.RunHand.kept_main_arg2 m c),
       (h c _).trans (Cert.ReferenceIdeal.RunHand.kept_main_arg3 m c),
       (h c _).trans (Cert.ReferenceIdeal.RunHand.kept_main_arg4 m c),
       (h c _).trans (Cert.ReferenceIdeal.RunHand.kept_main_arg5 m c),
       (h c _).trans (Cert.ReferenceIdeal.RunHand.kept_main_arg6 m c)⟩)
    (Cert.ReferenceIdeal.RunHand.run (F := Ideal) m ρ)

/-- The idealisation rewrote no operation. -/
theorem preserves : Cert.preserves_Kernel_KernelIdeal := trivial

/-- From memories agreeing on the arguments the two idealised programs end with equal results: the kernel
    program's at the array its second call leaves, the reference's at its result term of the same arguments,
    and those are one array (`Cert.Bridge.results_eq`). -/
theorem algebraic : Cert.algebraic_KernelIdeal_ReferenceIdeal := by
  intro m ρ m' ρ' _ hagree
  refine ⟨fun c => Cert.KernelIdeal.Gen.W4 m ρ c (Proc.devRef .tc Cert.KernelIdeal.main_v30),
    Cert.KernelIdeal.Run.run_named m ρ, ?_⟩
  refine (θ_run Cert.ReferenceIdeal.defs _ _).mono (fun _ h c =>
      ⟨?_,
       (h c _).trans (Cert.ReferenceIdeal.RunHand.kept_main_arg0 m' c),
       (h c _).trans (Cert.ReferenceIdeal.RunHand.kept_main_arg1 m' c),
       (h c _).trans (Cert.ReferenceIdeal.RunHand.kept_main_arg2 m' c),
       (h c _).trans (Cert.ReferenceIdeal.RunHand.kept_main_arg3 m' c),
       (h c _).trans (Cert.ReferenceIdeal.RunHand.kept_main_arg4 m' c),
       (h c _).trans (Cert.ReferenceIdeal.RunHand.kept_main_arg5 m' c),
       (h c _).trans (Cert.ReferenceIdeal.RunHand.kept_main_arg6 m' c)⟩)
    (Cert.ReferenceIdeal.RunHand.run (F := Ideal) m' ρ')
  rw [h c Cert.ReferenceIdeal.main_v51, Cert.ReferenceIdeal.RefTerm.result_eq,
    (hagree c).1, (hagree c).2.1, (hagree c).2.2.1, (hagree c).2.2.2.1, (hagree c).2.2.2.2.1,
    (hagree c).2.2.2.2.2.1, (hagree c).2.2.2.2.2.2]
  exact Cert.Bridge.results_eq m ρ c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
